-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v81)) (v2 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_v84) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S100000x128 : Shape := ⟨2, ![100000, 128]⟩
abbrev S30000x128 : Shape := ⟨2, ![30000, 128]⟩
abbrev S1600000 : Shape := ⟨1, ![1600000]⟩
abbrev S640000 : Shape := ⟨1, ![640000]⟩
abbrev S480000 : Shape := ⟨1, ![480000]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S30000x128 : S_.BroadcastsInDim S30000x128 (![] : Fin 0 → Fin S30000x128.rank)
  reducesTo_S30000x128_S_d0_1 : S30000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg26 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg26
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg22 : FVec F S128x128 .f32) (main_arg23 : FVec F S128x1 .f32) (main_arg24 : FVec F S1 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S128x128 .f32 := Host.absf main_arg22
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x1 .f32 := Host.absf main_arg23
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg24
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S128x1 .f32 := Host.absf main_arg25
  let main_cst_32 : FVec F S_ .f32 := constant S_ .f32 0x7F800000#32
  fn_part5 (F := F) main_arg26 main_v83 main_v84 main_cst_32

def fn_part3 {F : FTy → Type} [FloatOps F] (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_arg25 : FVec F S128x1 .f32) (main_arg26 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg19
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg20
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg22 main_arg23 main_arg24 main_arg25 main_arg26 main_v63 main_v67

def fn_part2 {F : FTy → Type} [FloatOps F] (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_arg25 : FVec F S128x1 .f32) (main_arg26 : FVec F S1 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg17
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg18
  let main_cst_18 : FVec F S_ .f32 := constant S_ .f32 0x7F800000#32
  let main_v50 : FVec F S128 .f32 := broadcastInDim S128 ![] bcast_S_S128 main_cst_18
  fn_part3 (F := F) main_arg19 main_arg20 main_arg21 main_arg22 main_arg23 main_arg24 main_arg25 main_arg26 main_v48 main_v49 main_v50

def fn_part1 {F : FTy → Type} [FloatOps F] (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_arg25 : FVec F S128x1 .f32) (main_arg26 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg12
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_arg26 main_v33

def fn {F : FTy → Type} [FloatOps F] (main_arg0 : FVec F S20000x128 .f32) (main_arg1 : FVec F S100000x128 .f32) (main_arg2 : FVec F S30000x128 .f32) (main_arg3 : IVec S1600000 32) (main_arg4 : IVec S1600000 32) (main_arg5 : IVec S640000 32) (main_arg6 : IVec S640000 32) (main_arg7 : IVec S480000 32) (main_arg8 : IVec S480000 32) (main_arg9 : IVec S320000 32) (main_arg10 : IVec S320000 32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x1 .f32) (main_arg24 : FVec F S1 .f32) (main_arg25 : FVec F S128x1 .f32) (main_arg26 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S30000x128 .f32 := Host.absf main_arg2
  let main_cst_2 : FVec F S_ .f32 := constant S_ .f32 0x7F800000#32
  let main_v10 : FVec F S30000x128 .f32 := broadcastInDim S30000x128 ![] bcast_S_S30000x128 main_cst_2
  let main_v11 : IVec S30000x128 1 := cmpf .olt main_v9 main_v10
  let main_c_3 : IVec S_ 1 := constantI S_ 1 1#1
  let main_v12 : IVec S_ 1 := (fun x v => Host.reduce IntOp.andi x v reducesTo_S30000x128_S_d0_1 h_S_) main_v11 main_c_3
  let main_v13 : IVec S_ 1 := andi main_v8 main_v12
  let main_v14 : FVec F S128x128 .f32 := Host.absf main_arg11
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg12 main_arg13 main_arg14 main_arg15 main_arg16 main_arg17 main_arg18 main_arg19 main_arg20 main_arg21 main_arg22 main_arg23 main_arg24 main_arg25 main_arg26 main_v13 main_v16
-- ==== Kernel.lean ====
abbrev S20000x128 : Shape := ⟨2, ![20000, 128]⟩
abbrev S100000x128 : Shape := ⟨2, ![100000, 128]⟩
abbrev S30000x128 : Shape := ⟨2, ![30000, 128]⟩
abbrev S1600000 : Shape := ⟨1, ![1600000]⟩
abbrev S640000 : Shape := ⟨1, ![640000]⟩
abbrev S480000 : Shape := ⟨1, ![480000]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S480000x1 : Shape := ⟨2, ![480000, 1]⟩
abbrev S480000x128 : Shape := ⟨2, ![480000, 128]⟩
abbrev S30000 : Shape := ⟨1, ![30000]⟩
abbrev S30000x1 : Shape := ⟨2, ![30000, 1]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S320000x1 : Shape := ⟨2, ![320000, 1]⟩
abbrev S320000x128 : Shape := ⟨2, ![320000, 128]⟩
abbrev S1x128 : Shape := ⟨2, ![1, 128]⟩
abbrev S2000x128 : Shape := ⟨2, ![2000, 128]⟩
abbrev S1x1 : Shape := ⟨2, ![1, 1]⟩
abbrev S2000x1 : Shape := ⟨2, ![2000, 1]⟩
abbrev S3000x128 : Shape := ⟨2, ![3000, 128]⟩
abbrev S3000x1 : Shape := ⟨2, ![3000, 1]⟩

abbrev nBuf : Space → Nat
  | .hbm => 136
  | .vmem => 36
  | .smem => 0
  | _ => 0

abbrev hbmTy0_0 (i : Nat) : BufTy := match i % 128 with
  | 0 => ⟨S20000x128, .f32⟩
  | 1 => ⟨S100000x128, .f32⟩
  | 2 => ⟨S30000x128, .f32⟩
  | 3 => ⟨S1600000, .i32⟩
  | 4 => ⟨S1600000, .i32⟩
  | 5 => ⟨S640000, .i32⟩
  | 6 => ⟨S640000, .i32⟩
  | 7 => ⟨S480000, .i32⟩
  | 8 => ⟨S480000, .i32⟩
  | 9 => ⟨S320000, .i32⟩
  | 10 => ⟨S320000, .i32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x1, .f32⟩
  | 24 => ⟨S1, .f32⟩
  | 25 => ⟨S128x1, .f32⟩
  | 26 => ⟨S1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S_, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S_, .i32⟩
  | 53 => ⟨S480000, .i32⟩
  | 54 => ⟨S480000, .i1⟩
  | 55 => ⟨S_, .i32⟩
  | 56 => ⟨S480000, .i32⟩
  | 57 => ⟨S480000, .i32⟩
  | 58 => ⟨S480000, .i32⟩
  | 59 => ⟨S480000x1, .i32⟩
  | 60 => ⟨S480000x128, .f32⟩
  | 61 => ⟨S_, .f32⟩
  | 62 => ⟨S30000x128, .f32⟩
  | 63 => ⟨S480000x1, .i32⟩
  | 64 => ⟨S30000x128, .f32⟩
  | 65 => ⟨S_, .f32⟩
  | 66 => ⟨S480000, .f32⟩
  | 67 => ⟨S_, .f32⟩
  | 68 => ⟨S30000, .f32⟩
  | 69 => ⟨S480000x1, .i32⟩
  | 70 => ⟨S30000, .f32⟩
  | 71 => ⟨S_, .f32⟩
  | 72 => ⟨S30000, .f32⟩
  | 73 => ⟨S30000, .f32⟩
  | 74 => ⟨S30000x1, .f32⟩
  | 75 => ⟨S30000x128, .f32⟩
  | 76 => ⟨S30000x128, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S_, .f32⟩
  | 87 => ⟨S20000x128, .f32⟩
  | 88 => ⟨S640000x1, .i32⟩
  | 89 => ⟨S20000x128, .f32⟩
  | 90 => ⟨S_, .f32⟩
  | 91 => ⟨S640000, .f32⟩
  | 92 => ⟨S_, .f32⟩
  | 93 => ⟨S20000, .f32⟩
  | 94 => ⟨S640000x1, .i32⟩
  | 95 => ⟨S20000, .f32⟩
  | 96 => ⟨S_, .f32⟩
  | 97 => ⟨S20000, .f32⟩
  | 98 => ⟨S20000, .f32⟩
  | 99 => ⟨S20000x1, .f32⟩
  | 100 => ⟨S20000x128, .f32⟩
  | 101 => ⟨S20000x128, .f32⟩
  | 102 => ⟨S_, .i32⟩
  | 103 => ⟨S320000, .i32⟩
  | 104 => ⟨S320000, .i1⟩
  | 105 => ⟨S_, .i32⟩
  | 106 => ⟨S320000, .i32⟩
  | 107 => ⟨S320000, .i32⟩
  | 108 => ⟨S320000, .i32⟩
  | 109 => ⟨S320000x1, .i32⟩
  | 110 => ⟨S320000x128, .f32⟩
  | 111 => ⟨S_, .f32⟩
  | 112 => ⟨S20000x128, .f32⟩
  | 113 => ⟨S320000x1, .i32⟩
  | 114 => ⟨S20000x128, .f32⟩
  | 115 => ⟨S_, .f32⟩
  | 116 => ⟨S320000, .f32⟩
  | 117 => ⟨S_, .f32⟩
  | 118 => ⟨S20000, .f32⟩
  | 119 => ⟨S320000x1, .i32⟩
  | 120 => ⟨S20000, .f32⟩
  | 121 => ⟨S_, .f32⟩
  | 122 => ⟨S20000, .f32⟩
  | 123 => ⟨S20000, .f32⟩
  | 124 => ⟨S20000x1, .f32⟩
  | 125 => ⟨S20000x128, .f32⟩
  | 126 => ⟨S20000x128, .f32⟩
  | 127 => ⟨S1x128, .f32⟩
  | _ => ⟨S20000x128, .f32⟩

abbrev hbmTy0_1 (i : Nat) : BufTy := match i % 128 with
  | 0 => ⟨S1x128, .f32⟩
  | 1 => ⟨S20000x128, .f32⟩
  | 2 => ⟨S1x128, .f32⟩
  | 3 => ⟨S1x1, .f32⟩
  | 4 => ⟨S100000x1, .f32⟩
  | 5 => ⟨S1x128, .f32⟩
  | 6 => ⟨S1x1, .f32⟩
  | 7 => ⟨S30000x1, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x1, .f32⟩
  | .local _ .vmem, ⟨22, _⟩ => ⟨S1x1, .f32⟩
  | .local _ .vmem, ⟨23, _⟩ => ⟨S2000x1, .f32⟩
  | .local _ .vmem, ⟨24, _⟩ => ⟨S2000x1, .f32⟩
  | .local _ .vmem, ⟨25, _⟩ => ⟨S3000x128, .f32⟩
  | .local _ .vmem, ⟨26, _⟩ => ⟨S3000x128, .f32⟩
  | .local _ .vmem, ⟨27, _⟩ => ⟨S3000x128, .f32⟩
  | .local _ .vmem, ⟨28, _⟩ => ⟨S3000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S128x1, .f32⟩
  | .local _ .vmem, ⟨33, _⟩ => ⟨S1x1, .f32⟩
  | .local _ .vmem, ⟨34, _⟩ => ⟨S3000x1, .f32⟩
  | .local _ .vmem, ⟨35, _⟩ => ⟨S3000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_c_5 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_10 : Ref sig .tc := ⟨.hbm, 77, rfl⟩
abbrev main_v38 : Ref sig .tc := ⟨.hbm, 78, rfl⟩
abbrev main_v39 : Ref sig .tc := ⟨.hbm, 79, rfl⟩
abbrev main_c_11 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_12 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_13 : Ref sig .tc := ⟨.hbm, 90, rfl⟩
abbrev main_v48 : Ref sig .tc := ⟨.hbm, 91, rfl⟩
abbrev main_cst_14 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_15 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_16 : Ref sig .tc := ⟨.hbm, 102, rfl⟩
abbrev main_v57 : Ref sig .tc := ⟨.hbm, 103, rfl⟩
abbrev main_v58 : Ref sig .tc := ⟨.hbm, 104, rfl⟩
abbrev main_c_17 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_18 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_19 : Ref sig .tc := ⟨.hbm, 115, rfl⟩
abbrev main_v67 : Ref sig .tc := ⟨.hbm, 116, rfl⟩
abbrev main_cst_20 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_21 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S3000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S480000 : S_.BroadcastsInDim S480000 (![] : Fin 0 → Fin S480000.rank)
  bcast_S480000_S480000x1_0 : S480000.BroadcastsInDim S480000x1 (![0] : Fin 1 → Fin S480000x1.rank)
  bcast_S_S30000x128 : S_.BroadcastsInDim S30000x128 (![] : Fin 0 → Fin S30000x128.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S320000 : S_.BroadcastsInDim S320000 (![] : Fin 0 → Fin S320000.rank)
  bcast_S320000_S320000x1_0 : S320000.BroadcastsInDim S320000x1 (![0] : Fin 1 → Fin S320000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  broadcasts_S1x128_S3000x128 : S1x128.Broadcasts S3000x128
  broadcasts_S1x1_S3000x1 : S1x1.Broadcasts S3000x1
  inb_S3000x1_S3000x1_0_0 : ∀ a, (![0, 0] : Fin 2 → Nat) a + S3000x1.size a ≤ S3000x1.size a
  h_S3000x1 : 0 < S3000x1.numel
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S20000x128_S480000x1_S480000x128_1_0_n_n_0_1_1128_wf : GatherDims.WF S20000x128 S480000x1 S480000x128 [1] [0] [] [0] [] 1 ![1, 128]
  scatter_S30000x128_S480000x1_S480000x128_1_0_0_1_wf : ScatterDims.WF S30000x128 S480000x1 S480000x128 [1] [0] [0] 1
  scatter_S30000_S480000x1_S480000_n_0_0_1_wf : ScatterDims.WF S30000 S480000x1 S480000 [] [0] [0] 1
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  gather_S30000x128_S320000x1_S320000x128_1_0_n_n_0_1_1128_wf : GatherDims.WF S30000x128 S320000x1 S320000x128 [1] [0] [] [0] [] 1 ![1, 128]
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  dot_S3000x128_S128x128_S3000x128_1_0_0_1_n_n_wf : DotDims.WF S3000x128 S128x128 S3000x128 [1] [0] [0] [1] [] []
  dot_S3000x128_S128x1_S3000x1_1_0_0_1_n_n_wf : DotDims.WF S3000x128 S128x1 S3000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S20000x128.size a
  hwx0_9 : ∀ i : grid0.Coords, EltTy.bits .f32 = 32 ∨ (Rect.block (s := S20000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S100000x1.size a
  hwx1_7 : ∀ i : grid1.Coords, EltTy.bits .f32 = 32 ∨ (Rect.block (s := S100000x1) S2000x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S30000x128.size a
  hwx2_0 : ∀ i : grid2.Coords, EltTy.bits .f32 = 32 ∨ (Rect.block (s := S30000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S30000x128.size a
  hwx2_1 : ∀ i : grid2.Coords, EltTy.bits .f32 = 32 ∨ (Rect.block (s := S30000x128) S3000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x1.size a ≤ S30000x1.size a
  hwx2_7 : ∀ i : grid2.Coords, EltTy.bits .f32 = 32 ∨ (Rect.block (s := S30000x1) S3000x1.size (cc2_transform_7 i) (hinb2_7 i)).WholeWords (EltTy.packing .f32)

variable [Facts₀]

def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S20000x128_S480000x1_S480000x128_1_0_n_n_0_1_1128 : GatherDims S20000x128 S480000x1 S480000x128 where
  offsetDims := [1]
  collapsedSliceDims := [0]
  operandBatchingDims := []
  startIndicesBatchingDims := []
  startIndexMap := [0]
  indexVectorDim := 1
  sliceSizes := ![1, 128]
  wf := gather_S20000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S30000x128_S320000x1_S320000x128_1_0_n_n_0_1_1128 : GatherDims S30000x128 S320000x1 S320000x128 where
  offsetDims := [1]
  collapsedSliceDims := [0]
  operandBatchingDims := []
  startIndicesBatchingDims := []
  startIndexMap := [0]
  indexVectorDim := 1
  sliceSizes := ![1, 128]
  wf := gather_S30000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x128_S128x1_S3000x1_1_0_0_1_n_n : DotDims S3000x128 S128x1 S3000x1 where
  lhsContracting := [1]
  rhsContracting := [0]
  lhsNonContracting := [0]
  rhsNonContracting := [1]
  lhsBatch := []
  rhsBatch := []
  wf := dot_S3000x128_S128x1_S3000x1_1_0_0_1_n_n_wf

abbrev win0_0 : Pipeline.Window sig grid0 :=
  Pipeline.Window.ofSpec (Memref.whole main_v56) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v76) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg20) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg22) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v78) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg23) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg25) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v84) S3000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x128 : Shape := ⟨2, ![20000, 128]⟩
abbrev S100000x128 : Shape := ⟨2, ![100000, 128]⟩
abbrev S30000x128 : Shape := ⟨2, ![30000, 128]⟩
abbrev S1600000 : Shape := ⟨1, ![1600000]⟩
abbrev S640000 : Shape := ⟨1, ![640000]⟩
abbrev S480000 : Shape := ⟨1, ![480000]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S480000x1 : Shape := ⟨2, ![480000, 1]⟩
abbrev S480000x128 : Shape := ⟨2, ![480000, 128]⟩
abbrev S30000 : Shape := ⟨1, ![30000]⟩
abbrev S30000x1 : Shape := ⟨2, ![30000, 1]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S320000x1 : Shape := ⟨2, ![320000, 1]⟩
abbrev S320000x128 : Shape := ⟨2, ![320000, 128]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S20000x128, .f32⟩
  | 1 => ⟨S100000x128, .f32⟩
  | 2 => ⟨S30000x128, .f32⟩
  | 3 => ⟨S1600000, .i32⟩
  | 4 => ⟨S1600000, .i32⟩
  | 5 => ⟨S640000, .i32⟩
  | 6 => ⟨S640000, .i32⟩
  | 7 => ⟨S480000, .i32⟩
  | 8 => ⟨S480000, .i32⟩
  | 9 => ⟨S320000, .i32⟩
  | 10 => ⟨S320000, .i32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x1, .f32⟩
  | 24 => ⟨S1, .f32⟩
  | 25 => ⟨S128x1, .f32⟩
  | 26 => ⟨S1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S_, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S100000x128, .f32⟩
  | 57 => ⟨S100000x128, .f32⟩
  | 58 => ⟨S_, .i32⟩
  | 59 => ⟨S480000, .i32⟩
  | 60 => ⟨S480000, .i1⟩
  | 61 => ⟨S_, .i32⟩
  | 62 => ⟨S480000, .i32⟩
  | 63 => ⟨S480000, .i32⟩
  | 64 => ⟨S480000, .i32⟩
  | 65 => ⟨S480000x1, .i32⟩
  | 66 => ⟨S480000x128, .f32⟩
  | 67 => ⟨S_, .f32⟩
  | 68 => ⟨S30000x128, .f32⟩
  | 69 => ⟨S480000x1, .i32⟩
  | 70 => ⟨S30000x128, .f32⟩
  | 71 => ⟨S_, .f32⟩
  | 72 => ⟨S480000, .f32⟩
  | 73 => ⟨S_, .f32⟩
  | 74 => ⟨S30000, .f32⟩
  | 75 => ⟨S480000x1, .i32⟩
  | 76 => ⟨S30000, .f32⟩
  | 77 => ⟨S_, .f32⟩
  | 78 => ⟨S30000, .f32⟩
  | 79 => ⟨S30000, .f32⟩
  | 80 => ⟨S30000x1, .f32⟩
  | 81 => ⟨S30000x128, .f32⟩
  | 82 => ⟨S30000x128, .f32⟩
  | 83 => ⟨S30000x128, .f32⟩
  | 84 => ⟨S1x128, .f32⟩
  | 85 => ⟨S30000x128, .f32⟩
  | 86 => ⟨S30000x128, .f32⟩
  | 87 => ⟨S30000x128, .f32⟩
  | 88 => ⟨S30000x128, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x128, .f32⟩
  | 98 => ⟨S_, .f32⟩
  | 99 => ⟨S20000x128, .f32⟩
  | 100 => ⟨S640000x1, .i32⟩
  | 101 => ⟨S20000x128, .f32⟩
  | 102 => ⟨S_, .f32⟩
  | 103 => ⟨S640000, .f32⟩
  | 104 => ⟨S_, .f32⟩
  | 105 => ⟨S20000, .f32⟩
  | 106 => ⟨S640000x1, .i32⟩
  | 107 => ⟨S20000, .f32⟩
  | 108 => ⟨S_, .f32⟩
  | 109 => ⟨S20000, .f32⟩
  | 110 => ⟨S20000, .f32⟩
  | 111 => ⟨S20000x1, .f32⟩
  | 112 => ⟨S20000x128, .f32⟩
  | 113 => ⟨S20000x128, .f32⟩
  | 114 => ⟨S20000x128, .f32⟩
  | 115 => ⟨S1x128, .f32⟩
  | 116 => ⟨S20000x128, .f32⟩
  | 117 => ⟨S20000x128, .f32⟩
  | 118 => ⟨S20000x128, .f32⟩
  | 119 => ⟨S20000x128, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S20000x128, .f32⟩

abbrev hbmTy0_1 (i : Nat) : BufTy := match i % 128 with
  | 0 => ⟨S320000x128, .f32⟩
  | 1 => ⟨S_, .f32⟩
  | 2 => ⟨S20000x128, .f32⟩
  | 3 => ⟨S320000x1, .i32⟩
  | 4 => ⟨S20000x128, .f32⟩
  | 5 => ⟨S_, .f32⟩
  | 6 => ⟨S320000, .f32⟩
  | 7 => ⟨S_, .f32⟩
  | 8 => ⟨S20000, .f32⟩
  | 9 => ⟨S320000x1, .i32⟩
  | 10 => ⟨S20000, .f32⟩
  | 11 => ⟨S_, .f32⟩
  | 12 => ⟨S20000, .f32⟩
  | 13 => ⟨S20000, .f32⟩
  | 14 => ⟨S20000x1, .f32⟩
  | 15 => ⟨S20000x128, .f32⟩
  | 16 => ⟨S20000x128, .f32⟩
  | 17 => ⟨S20000x128, .f32⟩
  | 18 => ⟨S1x128, .f32⟩
  | 19 => ⟨S20000x128, .f32⟩
  | 20 => ⟨S20000x128, .f32⟩
  | 21 => ⟨S20000x128, .f32⟩
  | 22 => ⟨S20000x128, .f32⟩
  | 23 => ⟨S20000x128, .f32⟩
  | 24 => ⟨S_, .f32⟩
  | 25 => ⟨S20000x128, .f32⟩
  | 26 => ⟨S20000x128, .f32⟩
  | 27 => ⟨S_, .f32⟩
  | 28 => ⟨S100000x128, .f32⟩
  | 29 => ⟨S100000x128, .f32⟩
  | 30 => ⟨S_, .f32⟩
  | 31 => ⟨S30000x128, .f32⟩
  | 32 => ⟨S30000x128, .f32⟩
  | 33 => ⟨S100000x1, .f32⟩
  | 34 => ⟨S1x1, .f32⟩
  | 35 => ⟨S100000x1, .f32⟩
  | 36 => ⟨S100000x1, .f32⟩
  | 37 => ⟨S30000x1, .f32⟩
  | 38 => ⟨S1x1, .f32⟩
  | 39 => ⟨S30000x1, .f32⟩
  | 40 => ⟨S30000x1, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_cst_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_4 : Ref sig .tc := ⟨.hbm, 58, rfl⟩
abbrev main_v25 : Ref sig .tc := ⟨.hbm, 59, rfl⟩
abbrev main_v26 : Ref sig .tc := ⟨.hbm, 60, rfl⟩
abbrev main_c_5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_10 : Ref sig .tc := ⟨.hbm, 89, rfl⟩
abbrev main_v50 : Ref sig .tc := ⟨.hbm, 90, rfl⟩
abbrev main_v51 : Ref sig .tc := ⟨.hbm, 91, rfl⟩
abbrev main_c_11 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_12 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_cst_14 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_15 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_16 : Ref sig .tc := ⟨.hbm, 120, rfl⟩
abbrev main_v75 : Ref sig .tc := ⟨.hbm, 121, rfl⟩
abbrev main_v76 : Ref sig .tc := ⟨.hbm, 122, rfl⟩
abbrev main_c_17 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_18 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_19 : Ref sig .tc := ⟨.hbm, 133, rfl⟩
abbrev main_v85 : Ref sig .tc := ⟨.hbm, 134, rfl⟩
abbrev main_cst_20 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_21 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_call0_cst : Ref sig .tc := ⟨.hbm, 152, rfl⟩
abbrev main_call0_v0 : Ref sig .tc := ⟨.hbm, 153, rfl⟩
abbrev main_v101 : Ref sig .tc := ⟨.hbm, 154, rfl⟩
abbrev main_call1_cst : Ref sig .tc := ⟨.hbm, 155, rfl⟩
abbrev main_call1_v0 : Ref sig .tc := ⟨.hbm, 156, rfl⟩
abbrev main_v102 : Ref sig .tc := ⟨.hbm, 157, rfl⟩
abbrev main_call2_cst : Ref sig .tc := ⟨.hbm, 158, rfl⟩
abbrev main_call2_v0 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S480000 : S_.BroadcastsInDim S480000 (![] : Fin 0 → Fin S480000.rank)
  bcast_S480000_S480000x1_0 : S480000.BroadcastsInDim S480000x1 (![0] : Fin 1 → Fin S480000x1.rank)
  bcast_S_S30000x128 : S_.BroadcastsInDim S30000x128 (![] : Fin 0 → Fin S30000x128.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  bcast_S1x128_S30000x128_0_1 : S1x128.BroadcastsInDim S30000x128 (![0, 1] : Fin 2 → Fin S30000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S1x1_S30000x1_0_1 : S1x1.BroadcastsInDim S30000x1 (![0, 1] : Fin 2 → Fin S30000x1.rank)
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S20000x128_S480000x1_S480000x128_1_0_n_n_0_1_1128_wf : GatherDims.WF S20000x128 S480000x1 S480000x128 [1] [0] [] [0] [] 1 ![1, 128]
  scatter_S30000x128_S480000x1_S480000x128_1_0_0_1_wf : ScatterDims.WF S30000x128 S480000x1 S480000x128 [1] [0] [0] 1
  scatter_S30000_S480000x1_S480000_n_0_0_1_wf : ScatterDims.WF S30000 S480000x1 S480000 [] [0] [0] 1
  dot_S30000x128_S128x128_S30000x128_1_0_0_1_n_n_wf : DotDims.WF S30000x128 S128x128 S30000x128 [1] [0] [0] [1] [] []
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x128_S128x128_S20000x128_1_0_0_1_n_n_wf : DotDims.WF S20000x128 S128x128 S20000x128 [1] [0] [0] [1] [] []
  gather_S30000x128_S320000x1_S320000x128_1_0_n_n_0_1_1128_wf : GatherDims.WF S30000x128 S320000x1 S320000x128 [1] [0] [] [0] [] 1 ![1, 128]
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1
  dot_S100000x128_S128x1_S100000x1_1_0_0_1_n_n_wf : DotDims.WF S100000x128 S128x1 S100000x1 [1] [0] [0] [1] [] []
  dot_S30000x128_S128x1_S30000x1_1_0_0_1_n_n_wf : DotDims.WF S30000x128 S128x1 S30000x1 [1] [0] [0] [1] [] []

variable [Facts₀]

def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S20000x128_S480000x1_S480000x128_1_0_n_n_0_1_1128 : GatherDims S20000x128 S480000x1 S480000x128 where
  offsetDims := [1]
  collapsedSliceDims := [0]
  operandBatchingDims := []
  startIndicesBatchingDims := []
  startIndexMap := [0]
  indexVectorDim := 1
  sliceSizes := ![1, 128]
  wf := gather_S20000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S30000x128_S320000x1_S320000x128_1_0_n_n_0_1_1128 : GatherDims S30000x128 S320000x1 S320000x128 where
  offsetDims := [1]
  collapsedSliceDims := [0]
  operandBatchingDims := []
  startIndicesBatchingDims := []
  startIndexMap := [0]
  indexVectorDim := 1
  sliceSizes := ![1, 128]
  wf := gather_S30000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S30000x128_S128x1_S30000x1_1_0_0_1_n_n : DotDims S30000x128 S128x1 S30000x1 where
  lhsContracting := [1]
  rhsContracting := [0]
  lhsNonContracting := [0]
  rhsNonContracting := [1]
  lhsBatch := []
  rhsBatch := []
  wf := dot_S30000x128_S128x1_S30000x1_1_0_0_1_n_n_wf

class Facts : Prop extends Facts₀ where

variable [Facts]
-- ==== Proof.KernelRun.lean ====
/-
  The kernel program's run with its three result arrays named.

  Every weakly fair execution of @main from the launch memory terminates, nothing faults, and at the end each unscoped
  buffer holds the last boundary's contents: the fold of the host stretches and of the three regions' write-backs from
  the launch memory.  Read at the three result buffers this names what the run leaves there; read at the arguments it
  is the launch memory again.  The run itself is the library's several-region launch over the segments of @main.
-/
import proofs.«166034_j32822140076342_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: each result buffer ends at the last boundary's contents, each argument as launched. -/
theorem run : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_v81) = W6 m ρ c (Proc.devRef .tc main_v81)
      ∧ r.2.mem ((c.tc : Thread nD τ).loc main_v84) = W6 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)),
       h c _ (mem_uc main_v81 (by decide)),
       h c _ (mem_uc main_v84 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c),
       (h c _ (mem_uc main_arg26 (by decide))).trans (W6_main_arg26 m ρ c)⟩)

end Cert.KernelIdeal.Named

end
-- ==== Proof.MeansKernel.lean ====
/-
  The four neighbourhood means of the network, each as one function of a feature table and two index arrays: the
  program's own host operations (a gather of whole rows, two scatter-additions, a maximum with one, a division), named so
  that a proof can carry a mean as ONE term and never open it.
-/
import proofs.«166034_j32822140076342_1_alg».proof.Proof.Gen.KernelIdeal

noncomputable section

namespace Cert.KernelIdeal.Means

open Cert.KernelIdeal Cert.KernelIdeal.Gen Idealize.ShloMosaic Idealize.ShloMosaic.TcCoe

variable {F : FTy → Type} [FloatOps F]

/-- For the the x_pfas node set: the mean of the x_gw rows arriving at each of its nodes: rows of `x` taken at `src` (a negative index counted from the end), added up per
    destination `dst`, divided by the number of arrivals there, at least one. -/
def meanGp (x : FVec F S100000x128 .f32) (src dst : IVec S640000 32) :
    FVec F S20000x128 .f32 :=
  Host.divf (Host.scatterAdd scatter_S20000x128_S640000x1_S640000x128_1_0_0_1 (broadcastInDim S20000x128 ![] bcast_S_S20000x128 (constant S_ .f32 0x00000000#32)) (broadcastInDim S640000x1 ![0] bcast_S640000_S640000x1_0 dst) (Host.gather gather_S100000x128_S640000x1_S640000x128_1_0_n_n_0_1_1128 x (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src)))) (broadcastInDim S20000x128 ![0, 1] bcast_S20000x1_S20000x128_0_1 (broadcastInDim S20000x1 ![0] bcast_S20000_S20000x1_0 (maximumf (Host.scatterAdd scatter_S20000_S640000x1_S640000_n_0_0_1 (broadcastInDim S20000 ![] bcast_S_S20000 (constant S_ .f32 0x00000000#32)) (broadcastInDim S640000x1 ![0] bcast_S640000_S640000x1_0 dst) (broadcastInDim S640000 ![] bcast_S_S640000 (constant S_ .f32 0x3F800000#32))) (broadcastInDim S20000 ![] bcast_S_S20000 (constant S_ .f32 0x3F800000#32)))))

/-- For the the x_pfas node set: the mean of the x_sw rows arriving at each of its nodes: rows of `x` taken at `src` (a negative index counted from the end), added up per
    destination `dst`, divided by the number of arrivals there, at least one. -/
def meanSp (x : FVec F S30000x128 .f32) (src dst : IVec S320000 32) :
    FVec F S20000x128 .f32 :=
  Host.divf (Host.scatterAdd scatter_S20000x128_S320000x1_S320000x128_1_0_0_1 (broadcastInDim S20000x128 ![] bcast_S_S20000x128 (constant S_ .f32 0x00000000#32)) (broadcastInDim S320000x1 ![0] bcast_S320000_S320000x1_0 dst) (Host.gather gather_S30000x128_S320000x1_S320000x128_1_0_n_n_0_1_1128 x (broadcastInDim S320000x1 ![0] bcast_S320000_S320000x1_0 (select (cmpi .slt src (broadcastInDim S320000 ![] bcast_S_S320000 (constantI S_ 32 0#32))) (addi src (broadcastInDim S320000 ![] bcast_S_S320000 (constantI S_ 32 30000#32))) src)))) (broadcastInDim S20000x128 ![0, 1] bcast_S20000x1_S20000x128_0_1 (broadcastInDim S20000x1 ![0] bcast_S20000_S20000x1_0 (maximumf (Host.scatterAdd scatter_S20000_S320000x1_S320000_n_0_0_1 (broadcastInDim S20000 ![] bcast_S_S20000 (constant S_ .f32 0x00000000#32)) (broadcastInDim S320000x1 ![0] bcast_S320000_S320000x1_0 dst) (broadcastInDim S320000 ![] bcast_S_S320000 (constant S_ .f32 0x3F800000#32))) (broadcastInDim S20000 ![] bcast_S_S20000 (constant S_ .f32 0x3F800000#32)))))

/-- For the the x_gw node set: the mean of the x_pfas rows arriving at each of its nodes: rows of `x` taken at `src` (a negative index counted from the end), added up per
    destination `dst`, divided by the number of arrivals there, at least one. -/
def meanGw (x : FVec F S20000x128 .f32) (src dst : IVec S1600000 32) :
    FVec F S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S20000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 20000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

/-- For the the x_sw node set: the mean of the x_pfas rows arriving at each of its nodes: rows of `x` taken at `src` (a negative index counted from the end), added up per
    destination `dst`, divided by the number of arrivals there, at least one. -/
def meanSw (x : FVec F S20000x128 .f32) (src dst : IVec S480000 32) :
    FVec F S30000x128 .f32 :=
  Host.divf (Host.scatterAdd scatter_S30000x128_S480000x1_S480000x128_1_0_0_1 (broadcastInDim S30000x128 ![] bcast_S_S30000x128 (constant S_ .f32 0x00000000#32)) (broadcastInDim S480000x1 ![0] bcast_S480000_S480000x1_0 dst) (Host.gather gather_S20000x128_S480000x1_S480000x128_1_0_n_n_0_1_1128 x (broadcastInDim S480000x1 ![0] bcast_S480000_S480000x1_0 (select (cmpi .slt src (broadcastInDim S480000 ![] bcast_S_S480000 (constantI S_ 32 0#32))) (addi src (broadcastInDim S480000 ![] bcast_S_S480000 (constantI S_ 32 20000#32))) src)))) (broadcastInDim S30000x128 ![0, 1] bcast_S30000x1_S30000x128_0_1 (broadcastInDim S30000x1 ![0] bcast_S30000_S30000x1_0 (maximumf (Host.scatterAdd scatter_S30000_S480000x1_S480000_n_0_0_1 (broadcastInDim S30000 ![] bcast_S_S30000 (constant S_ .f32 0x00000000#32)) (broadcastInDim S480000x1 ![0] bcast_S480000_S480000x1_0 dst) (broadcastInDim S480000 ![] bcast_S_S480000 (constant S_ .f32 0x3F800000#32))) (broadcastInDim S30000 ![] bcast_S_S30000 (constant S_ .f32 0x3F800000#32)))))

end Cert.KernelIdeal.Means

end
-- ==== Proof.Boundary.lean ====
/-
  What the kernel program's buffers hold where each of its three regions is entered.

  @main computes the four neighbourhood means and reshapes two bias vectors into rows (its first stretch of host
  operations), runs region 0, reshapes two more vectors, runs region 1, reshapes the last two, runs region 2.  No host
  operation and no region writes an argument, a mean is written once and read by one region, and a region writes its
  result array only; so at a region's entry each of its input arrays is still what its one writer left: an argument as
  launched, a mean as the first stretch computed it from the arguments, a bias row as the reshape of its vector.
  Every statement here holds at any float instance.
-/
import proofs.«166034_j32822140076342_1_alg».proof.Proof.Gen.KernelIdeal.Frame
import proofs.«166034_j32822140076342_1_alg».proof.Proof.MeansKernel
import Idealize.ShloMosaic.Lib.StableHlo.Run

set_option maxRecDepth 16384

noncomputable section

namespace Cert.KernelIdeal.Boundary

open Cert.KernelIdeal Cert.KernelIdeal.Gen Cert.KernelIdeal.Means
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a literal stretch of host operations writes the buffer in the goal. -/
macro "no_write " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first stretch of host operations (region 0's entry) -/

theorem W1_arg0 (c : Dev nD) : W1 m ρ c (Proc.devRef .tc main_arg0) = m ((c : Thread nD τ).loc main_arg0) :=
  (StableHlo.after_of_forall_not_mem (b := Proc.devRef .tc main_arg0) _ _ (by no_write hostOps0)).trans rfl
theorem W1_arg1 (c : Dev nD) : W1 m ρ c (Proc.devRef .tc main_arg1) = m ((c : Thread nD τ).loc main_arg1) :=
  (StableHlo.after_of_forall_not_mem (b := Proc.devRef .tc main_arg1) _ _ (by no_write hostOps0)).trans rfl
theorem W1_arg2 (c : Dev nD) : W1 m ρ c (Proc.devRef .tc main_arg2) = m ((c : Thread nD τ).loc main_arg2) :=
  (StableHlo.after_of_forall_not_mem (b := Proc.devRef .tc main_arg2) _ _ (by no_write hostOps0)).trans rfl
theorem W1_arg11 (c : Dev nD) : W1 m ρ c (Proc.devRef .tc main_arg11) = m ((c : Thread nD τ).loc main_arg11) :=
  (StableHlo.after_of_forall_not_mem (b := Proc.devRef .tc main_arg11) _ _ (by no_write hostOps0)).trans rfl
theorem W1_arg12 (c : Dev nD) : W1 m ρ c (Proc.devRef .tc main_arg12) = m ((c : Thread nD τ).loc main_arg12) :=
  (StableHlo.after_of_forall_not_mem (b := Proc.devRef .tc main_arg12) _ _ (by no_write hostOps0)).trans rfl
theorem W1_arg13 (c : Dev nD) : W1 m ρ c (Proc.devRef .tc main_arg13) = m ((c : Thread nD τ).loc main_arg13) :=
  (StableHlo.after_of_forall_not_mem (b := Proc.devRef .tc main_arg13) _ _ (by no_write hostOps0)).trans rfl
theorem W1_arg14 (c : Dev nD) : W1 m ρ c (Proc.devRef .tc main_arg14) = m ((c : Thread nD τ).loc main_arg14) :=
  (StableHlo.after_of_forall_not_mem (b := Proc.devRef .tc main_arg14) _ _ (by no_write hostOps0)).trans rfl
theorem W1_arg15 (c : Dev nD) : W1 m ρ c (Proc.devRef .tc main_arg15) = m ((c : Thread nD τ).loc main_arg15) :=
  (StableHlo.after_of_forall_not_mem (b := Proc.devRef .tc main_arg15) _ _ (by no_write hostOps0)).trans rfl
theorem W1_arg16 (c : Dev nD) : W1 m ρ c (Proc.devRef .tc main_arg16) = m ((c : Thread nD τ).loc main_arg16) :=
  (StableHlo.after_of_forall_not_mem (b := Proc.devRef .tc main_arg16) _ _ (by no_write hostOps0)).trans rfl
theorem W1_arg17 (c : Dev nD) : W1 m ρ c (Proc.devRef .tc main_arg17) = m ((c : Thread nD τ).loc main_arg17) :=
  (StableHlo.after_of_forall_not_mem (b := Proc.devRef .tc main_arg17) _ _ (by no_write hostOps0)).trans rfl
theorem W1_arg18 (c : Dev nD) : W1 m ρ c (Proc.devRef .tc main_arg18) = m ((c : Thread nD τ).loc main_arg18) :=
  (StableHlo.after_of_forall_not_mem (b := Proc.devRef .tc main_arg18) _ _ (by no_write hostOps0)).trans rfl
theorem W1_arg19 (c : Dev nD) : W1 m ρ c (Proc.devRef .tc main_arg19) = m ((c : Thread nD τ).loc main_arg19) :=
  (StableHlo.after_of_forall_not_mem (b := Proc.devRef .tc main_arg19) _ _ (by no_write hostOps0)).trans rfl
theorem W1_arg20 (c : Dev nD) : W1 m ρ c (Proc.devRef .tc main_arg20) = m ((c : Thread nD τ).loc main_arg20) :=
  (StableHlo.after_of_forall_not_mem (b := Proc.devRef .tc main_arg20) _ _ (by no_write hostOps0)).trans rfl
theorem W1_arg21 (c : Dev nD) : W1 m ρ c (Proc.devRef .tc main_arg21) = m ((c : Thread nD τ).loc main_arg21) :=
  (StableHlo.after_of_forall_not_mem (b := Proc.devRef .tc main_arg21) _ _ (by no_write hostOps0)).trans rfl
theorem W1_arg22 (c : Dev nD) : W1 m ρ c (Proc.devRef .tc main_arg22) = m ((c : Thread nD τ).loc main_arg22) :=
  (StableHlo.after_of_forall_not_mem (b := Proc.devRef .tc main_arg22) _ _ (by no_write hostOps0)).trans rfl
theorem W1_arg23 (c : Dev nD) : W1 m ρ c (Proc.devRef .tc main_arg23) = m ((c : Thread nD τ).loc main_arg23) :=
  (StableHlo.after_of_forall_not_mem (b := Proc.devRef .tc main_arg23) _ _ (by no_write hostOps0)).trans rfl
theorem W1_arg24 (c : Dev nD) : W1 m ρ c (Proc.devRef .tc main_arg24) = m ((c : Thread nD τ).loc main_arg24) :=
  (StableHlo.after_of_forall_not_mem (b := Proc.devRef .tc main_arg24) _ _ (by no_write hostOps0)).trans rfl
theorem W1_arg25 (c : Dev nD) : W1 m ρ c (Proc.devRef .tc main_arg25) = m ((c : Thread nD τ).loc main_arg25) :=
  (StableHlo.after_of_forall_not_mem (b := Proc.devRef .tc main_arg25) _ _ (by no_write hostOps0)).trans rfl
theorem W1_arg26 (c : Dev nD) : W1 m ρ c (Proc.devRef .tc main_arg26) = m ((c : Thread nD τ).loc main_arg26) :=
  (StableHlo.after_of_forall_not_mem (b := Proc.devRef .tc main_arg26) _ _ (by no_write hostOps0)).trans rfl

set_option maxHeartbeats 8000000 in
theorem W1_v18 (c : Dev nD) : W1 m ρ c (Proc.devRef .tc main_v18) = meanGw (m ((c : Thread nD τ).loc main_arg0)) (m ((c : Thread nD τ).loc main_arg3)) (m ((c : Thread nD τ).loc main_arg4)) := by
  show StableHlo.after hostOps0 (W0 m ρ c) (Proc.devRef .tc main_v18) = _
  dsimp only [hostOps0]
  after_results_simp <;> rfl

set_option maxHeartbeats 8000000 in
theorem W1_v37 (c : Dev nD) : W1 m ρ c (Proc.devRef .tc main_v37) = meanSw (m ((c : Thread nD τ).loc main_arg0)) (m ((c : Thread nD τ).loc main_arg7)) (m ((c : Thread nD τ).loc main_arg8)) := by
  show StableHlo.after hostOps0 (W0 m ρ c) (Proc.devRef .tc main_v37) = _
  dsimp only [hostOps0]
  after_results_simp <;> rfl

set_option maxHeartbeats 8000000 in
theorem W1_v56 (c : Dev nD) : W1 m ρ c (Proc.devRef .tc main_v56) = meanGp (m ((c : Thread nD τ).loc main_arg1)) (m ((c : Thread nD τ).loc main_arg5)) (m ((c : Thread nD τ).loc main_arg6)) := by
  show StableHlo.after hostOps0 (W0 m ρ c) (Proc.devRef .tc main_v56) = _
  dsimp only [hostOps0]
  after_results_simp <;> rfl

set_option maxHeartbeats 8000000 in
theorem W1_v75 (c : Dev nD) : W1 m ρ c (Proc.devRef .tc main_v75) = meanSp (m ((c : Thread nD τ).loc main_arg2)) (m ((c : Thread nD τ).loc main_arg9)) (m ((c : Thread nD τ).loc main_arg10)) := by
  show StableHlo.after hostOps0 (W0 m ρ c) (Proc.devRef .tc main_v75) = _
  dsimp only [hostOps0]
  after_results_simp <;> rfl

set_option maxHeartbeats 8000000 in
theorem W1_v76 (c : Dev nD) : W1 m ρ c (Proc.devRef .tc main_v76) = shapeCast S1x128 (m ((c : Thread nD τ).loc main_arg15)) shapeCasts_S128_S1x128 := by
  show StableHlo.after hostOps0 (W0 m ρ c) (Proc.devRef .tc main_v76) = _
  dsimp only [hostOps0]
  after_results_simp <;> rfl

set_option maxHeartbeats 8000000 in
theorem W1_v77 (c : Dev nD) : W1 m ρ c (Proc.devRef .tc main_v77) = shapeCast S1x128 (m ((c : Thread nD τ).loc main_arg21)) shapeCasts_S128_S1x128 := by
  show StableHlo.after hostOps0 (W0 m ρ c) (Proc.devRef .tc main_v77) = _
  dsimp only [hostOps0]
  after_results_simp <;> rfl

/-! ## A buffer nobody writes in between still holds at a later entry what it held after the first stretch -/

/-- At region 1's entry: not written by the second stretch, not an array of region 0. -/
theorem W3_keep (c : Dev nD) (b : Ref sig .tc)
    (h1 : ∀ op ∈ (hostOps1 : List (HloOp τ sig (Elt F))), Proc.devRef .tc b ∉ op.writes)
    (h0 : ∀ w, Pipeline.arrRef spec0 w ≠ b) :
    W3 m ρ c (Proc.devRef .tc b) = W1 m ρ c (Proc.devRef .tc b) :=
  (StableHlo.after_of_forall_not_mem (b := Proc.devRef .tc b) _ _ h1).trans (W2_of_ne m ρ c b h0)

/-- At region 2's entry: moreover not written by the third stretch, not an array of region 1. -/
theorem W5_keep (c : Dev nD) (b : Ref sig .tc)
    (h2 : ∀ op ∈ (hostOps2 : List (HloOp τ sig (Elt F))), Proc.devRef .tc b ∉ op.writes)
    (h1' : ∀ w, Pipeline.arrRef spec1 w ≠ b)
    (h1 : ∀ op ∈ (hostOps1 : List (HloOp τ sig (Elt F))), Proc.devRef .tc b ∉ op.writes)
    (h0 : ∀ w, Pipeline.arrRef spec0 w ≠ b) :
    W5 m ρ c (Proc.devRef .tc b) = W1 m ρ c (Proc.devRef .tc b) :=
  ((StableHlo.after_of_forall_not_mem (b := Proc.devRef .tc b) _ _ h2).trans (W4_of_ne m ρ c b h1')).trans (W3_keep m ρ c b h1 h0)

/-! ## Region 0's input arrays at its entry -/

theorem V1_v56 (c : Dev nD) : V1 m ρ c main_v56 = meanGp (m ((c : Thread nD τ).loc main_arg1)) (m ((c : Thread nD τ).loc main_arg5)) (m ((c : Thread nD τ).loc main_arg6)) := W1_v56 m ρ c
theorem V1_v75 (c : Dev nD) : V1 m ρ c main_v75 = meanSp (m ((c : Thread nD τ).loc main_arg2)) (m ((c : Thread nD τ).loc main_arg9)) (m ((c : Thread nD τ).loc main_arg10)) := W1_v75 m ρ c
theorem V1_v76 (c : Dev nD) : V1 m ρ c main_v76 = shapeCast S1x128 (m ((c : Thread nD τ).loc main_arg15)) shapeCasts_S128_S1x128 := W1_v76 m ρ c
theorem V1_v77 (c : Dev nD) : V1 m ρ c main_v77 = shapeCast S1x128 (m ((c : Thread nD τ).loc main_arg21)) shapeCasts_S128_S1x128 := W1_v77 m ρ c
theorem V1_arg0 (c : Dev nD) : V1 m ρ c main_arg0 = (m ((c : Thread nD τ).loc main_arg0)) := W1_arg0 m ρ c
theorem V1_arg14 (c : Dev nD) : V1 m ρ c main_arg14 = (m ((c : Thread nD τ).loc main_arg14)) := W1_arg14 m ρ c
theorem V1_arg16 (c : Dev nD) : V1 m ρ c main_arg16 = (m ((c : Thread nD τ).loc main_arg16)) := W1_arg16 m ρ c
theorem V1_arg20 (c : Dev nD) : V1 m ρ c main_arg20 = (m ((c : Thread nD τ).loc main_arg20)) := W1_arg20 m ρ c
theorem V1_arg22 (c : Dev nD) : V1 m ρ c main_arg22 = (m ((c : Thread nD τ).loc main_arg22)) := W1_arg22 m ρ c

/-! ## Region 1's input arrays at its entry -/

theorem V3_v18 (c : Dev nD) : V3 m ρ c main_v18 = meanGw (m ((c : Thread nD τ).loc main_arg0)) (m ((c : Thread nD τ).loc main_arg3)) (m ((c : Thread nD τ).loc main_arg4)) :=
  (W3_keep m ρ c main_v18 (by no_write hostOps1) (by decide)).trans (W1_v18 m ρ c)
theorem V3_arg1 (c : Dev nD) : V3 m ρ c main_arg1 = (m ((c : Thread nD τ).loc main_arg1)) :=
  (W3_keep m ρ c main_arg1 (by no_write hostOps1) (by decide)).trans (W1_arg1 m ρ c)
theorem V3_arg11 (c : Dev nD) : V3 m ρ c main_arg11 = (m ((c : Thread nD τ).loc main_arg11)) :=
  (W3_keep m ρ c main_arg11 (by no_write hostOps1) (by decide)).trans (W1_arg11 m ρ c)
theorem V3_arg13 (c : Dev nD) : V3 m ρ c main_arg13 = (m ((c : Thread nD τ).loc main_arg13)) :=
  (W3_keep m ρ c main_arg13 (by no_write hostOps1) (by decide)).trans (W1_arg13 m ρ c)
theorem V3_arg23 (c : Dev nD) : V3 m ρ c main_arg23 = (m ((c : Thread nD τ).loc main_arg23)) :=
  (W3_keep m ρ c main_arg23 (by no_write hostOps1) (by decide)).trans (W1_arg23 m ρ c)

theorem V3_v79 (c : Dev nD) : V3 m ρ c main_v79 = shapeCast S1x128 (m ((c : Thread nD τ).loc main_arg12)) shapeCasts_S128_S1x128 := by
  have e : W3 m ρ c (Proc.devRef .tc main_v79) = shapeCast S1x128 (W2 m ρ c (Proc.devRef .tc main_arg12)) shapeCasts_S128_S1x128 := by
    show StableHlo.after hostOps1 (W2 m ρ c) (Proc.devRef .tc main_v79) = _
    dsimp only [hostOps1]
    after_results <;> rfl
  show W3 m ρ c (Proc.devRef .tc main_v79) = _
  rw [e, W2_of_ne m ρ c main_arg12 (by decide), W1_arg12 m ρ c]

theorem V3_v80 (c : Dev nD) : V3 m ρ c main_v80 = shapeCast S1x1 (m ((c : Thread nD τ).loc main_arg24)) shapeCasts_S1_S1x1 := by
  have e : W3 m ρ c (Proc.devRef .tc main_v80) = shapeCast S1x1 (W2 m ρ c (Proc.devRef .tc main_arg24)) shapeCasts_S1_S1x1 := by
    show StableHlo.after hostOps1 (W2 m ρ c) (Proc.devRef .tc main_v80) = _
    dsimp only [hostOps1]
    after_results <;> rfl
  show W3 m ρ c (Proc.devRef .tc main_v80) = _
  rw [e, W2_of_ne m ρ c main_arg24 (by decide), W1_arg24 m ρ c]

/-! ## Region 2's input arrays at its entry -/

theorem V5_v37 (c : Dev nD) : V5 m ρ c main_v37 = meanSw (m ((c : Thread nD τ).loc main_arg0)) (m ((c : Thread nD τ).loc main_arg7)) (m ((c : Thread nD τ).loc main_arg8)) :=
  (W5_keep m ρ c main_v37 (by no_write hostOps2) (by decide) (by no_write hostOps1) (by decide)).trans (W1_v37 m ρ c)
theorem V5_arg2 (c : Dev nD) : V5 m ρ c main_arg2 = (m ((c : Thread nD τ).loc main_arg2)) :=
  (W5_keep m ρ c main_arg2 (by no_write hostOps2) (by decide) (by no_write hostOps1) (by decide)).trans (W1_arg2 m ρ c)
theorem V5_arg17 (c : Dev nD) : V5 m ρ c main_arg17 = (m ((c : Thread nD τ).loc main_arg17)) :=
  (W5_keep m ρ c main_arg17 (by no_write hostOps2) (by decide) (by no_write hostOps1) (by decide)).trans (W1_arg17 m ρ c)
theorem V5_arg19 (c : Dev nD) : V5 m ρ c main_arg19 = (m ((c : Thread nD τ).loc main_arg19)) :=
  (W5_keep m ρ c main_arg19 (by no_write hostOps2) (by decide) (by no_write hostOps1) (by decide)).trans (W1_arg19 m ρ c)
theorem V5_arg25 (c : Dev nD) : V5 m ρ c main_arg25 = (m ((c : Thread nD τ).loc main_arg25)) :=
  (W5_keep m ρ c main_arg25 (by no_write hostOps2) (by decide) (by no_write hostOps1) (by decide)).trans (W1_arg25 m ρ c)

theorem V5_v82 (c : Dev nD) : V5 m ρ c main_v82 = shapeCast S1x128 (m ((c : Thread nD τ).loc main_arg18)) shapeCasts_S128_S1x128 := by
  have e : W5 m ρ c (Proc.devRef .tc main_v82) = shapeCast S1x128 (W4 m ρ c (Proc.devRef .tc main_arg18)) shapeCasts_S128_S1x128 := by
    show StableHlo.after hostOps2 (W4 m ρ c) (Proc.devRef .tc main_v82) = _
    dsimp only [hostOps2]
    after_results <;> rfl
  show W5 m ρ c (Proc.devRef .tc main_v82) = _
  rw [e, W4_of_ne m ρ c main_arg18 (by decide), W3_keep m ρ c main_arg18 (by no_write hostOps1) (by decide), W1_arg18 m ρ c]

theorem V5_v83 (c : Dev nD) : V5 m ρ c main_v83 = shapeCast S1x1 (m ((c : Thread nD τ).loc main_arg26)) shapeCasts_S1_S1x1 := by
  have e : W5 m ρ c (Proc.devRef .tc main_v83) = shapeCast S1x1 (W4 m ρ c (Proc.devRef .tc main_arg26)) shapeCasts_S1_S1x1 := by
    show StableHlo.after hostOps2 (W4 m ρ c) (Proc.devRef .tc main_v83) = _
    dsimp only [hostOps2]
    after_results <;> rfl
  show W5 m ρ c (Proc.devRef .tc main_v83) = _
  rw [e, W4_of_ne m ρ c main_arg26 (by decide), W3_keep m ρ c main_arg26 (by no_write hostOps1) (by decide), W1_arg26 m ρ c]

/-! ## The three result arrays at the end -/

/-- Region 0's result array is written by nobody after region 0. -/
theorem W6_v78 (c : Dev nD) : W6 m ρ c (Proc.devRef .tc main_v78) = (dat0 (V1 m ρ) c).arrAt 9 cfg0.N :=
  calc W6 m ρ c (Proc.devRef .tc main_v78)
    _ = W5 m ρ c (Proc.devRef .tc main_v78) := W6_of_ne m ρ c main_v78 (by decide)
    _ = W4 m ρ c (Proc.devRef .tc main_v78) := StableHlo.after_of_forall_not_mem (b := Proc.devRef .tc main_v78) _ _ (by no_write hostOps2)
    _ = W3 m ρ c (Proc.devRef .tc main_v78) := W4_of_ne m ρ c main_v78 (by decide)
    _ = W2 m ρ c (Proc.devRef .tc main_v78) := StableHlo.after_of_forall_not_mem (b := Proc.devRef .tc main_v78) _ _ (by no_write hostOps1)
    _ = (dat0 (V1 m ρ) c).arrAt 9 cfg0.N := W2_arr m ρ c 9

/-- Region 1's result array is written by nobody after region 1. -/
theorem W6_v81 (c : Dev nD) : W6 m ρ c (Proc.devRef .tc main_v81) = (dat1 (V3 m ρ) c).arrAt 7 cfg1.N :=
  calc W6 m ρ c (Proc.devRef .tc main_v81)
    _ = W5 m ρ c (Proc.devRef .tc main_v81) := W6_of_ne m ρ c main_v81 (by decide)
    _ = W4 m ρ c (Proc.devRef .tc main_v81) := StableHlo.after_of_forall_not_mem (b := Proc.devRef .tc main_v81) _ _ (by no_write hostOps2)
    _ = (dat1 (V3 m ρ) c).arrAt 7 cfg1.N := W4_arr m ρ c 7

/-- Region 2's result array is what region 2 leaves. -/
theorem W6_v84 (c : Dev nD) : W6 m ρ c (Proc.devRef .tc main_v84) = (dat2 (V5 m ρ) c).arrAt 7 cfg2.N :=
  W6_arr m ρ c 7

end Cert.KernelIdeal.Boundary

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«166034_j32822140076342_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«166034_j32822140076342_1_alg».proof.Proof.LibPlainMatmul
import proofs.«166034_j32822140076342_1_alg».proof.Proof.LibPlainDot
import proofs.«166034_j32822140076342_1_alg».proof.Proof.LibHostRows
import proofs.«166034_j32822140076342_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibHeteroLayers.lean ====
/-
  The three results of the heterogeneous two-layer network, as whole matrices on the extended reals, and the entries
  of a kernel body's tile read against them.

  One relation's pre-activation at (r, g) is  (Σₖ a (r, k) · Wl (k, g) + b (0, g)) + Σₖ h (r, k) · Wr (k, g):
  the aggregated neighbours through Wl with the bias row, plus the node's own features through Wr.
    * a node set that receives ONE relation ends, per row r, at  Σ_g max (pre (r, g), 0) · Wh (g, 0) + bh (0, 0)  (`headOut`);
    * the node set that receives TWO relations ends at  max (pre₁ (r, g) + pre₂ (r, g), 0)  (`dualOut`).
  A body tile computes the same entries with the bias added last, (a · Wl + h · Wr) + b; on the extended reals addition
  is commutative and associative, so the two groupings agree (`add_right_comm`), with no finiteness needed.
  Every entry depends on ONE row of a and h only (`affineAt_rows`, `dotAt_rows`), which is why a tile of rows of the
  result is the result of the tile of rows (`headOut_rows`, `dualOut_rows`).
-/
import proofs.«166034_j32822140076342_1_alg».proof.Proof.LibDenseLayers

noncomputable section

open scoped BigOperators

namespace Cert.Hetero

open Idealize.ShloMosaic Idealize.ShloMosaic.ValueIdx Cert.SageLayers

variable {R R' K N : ℕ}

/-- x · W + b at (r, g) reads row r of x only. -/
theorem affineAt_rows (A : (⟨2, ![R, K]⟩ : Shape).Idx → EReal) (A' : (⟨2, ![R', K]⟩ : Shape).Idx → EReal)
    (W : (⟨2, ![K, N]⟩ : Shape).Idx → EReal) (b : (⟨2, ![1, N]⟩ : Shape).Idx → EReal) (r : Fin R) (r' : Fin R') (g : Fin N)
    (h : ∀ k : Fin K, A (ix2 r k) = A' (ix2 r' k)) : affineAt A W b r g = affineAt A' W b r' g := by
  unfold affineAt
  rw [Finset.sum_congr rfl (fun k _ => by rw [h k])]

/-- h · W at (r, g) reads row r of h only. -/
theorem dotAt_rows (H : (⟨2, ![R, K]⟩ : Shape).Idx → EReal) (H' : (⟨2, ![R', K]⟩ : Shape).Idx → EReal)
    (W : (⟨2, ![K, N]⟩ : Shape).Idx → EReal) (r : Fin R) (r' : Fin R') (g : Fin N)
    (h : ∀ k : Fin K, H (ix2 r k) = H' (ix2 r' k)) : dotAt H W r g = dotAt H' W r' g := by
  unfold dotAt
  rw [Finset.sum_congr rfl (fun k _ => by rw [h k])]

/-- The result of a node set that receives one relation: the rectified layer through the [K, 1] head and its bias. -/
def headOut (A H : (⟨2, ![R, K]⟩ : Shape).Idx → EReal) (Wl : (⟨2, ![K, N]⟩ : Shape).Idx → EReal)
    (b : (⟨2, ![1, N]⟩ : Shape).Idx → EReal) (Wr : (⟨2, ![K, N]⟩ : Shape).Idx → EReal)
    (Wh : (⟨2, ![N, 1]⟩ : Shape).Idx → EReal) (bh : (⟨2, ![1, 1]⟩ : Shape).Idx → EReal) : (⟨2, ![R, 1]⟩ : Shape).Idx → EReal :=
  affLayer (sageLayer A H Wl b Wr) Wh bh

/-- The result of the node set that receives two relations: the two pre-activations added, then rectified. -/
def dualOut (A1 H : (⟨2, ![R, K]⟩ : Shape).Idx → EReal) (Wl1 : (⟨2, ![K, N]⟩ : Shape).Idx → EReal)
    (b1 : (⟨2, ![1, N]⟩ : Shape).Idx → EReal) (Wr1 : (⟨2, ![K, N]⟩ : Shape).Idx → EReal)
    (A2 : (⟨2, ![R, K]⟩ : Shape).Idx → EReal) (Wl2 : (⟨2, ![K, N]⟩ : Shape).Idx → EReal)
    (b2 : (⟨2, ![1, N]⟩ : Shape).Idx → EReal) (Wr2 : (⟨2, ![K, N]⟩ : Shape).Idx → EReal) : (⟨2, ![R, N]⟩ : Shape).Idx → EReal :=
  fun i => max ((affineAt A1 Wl1 b1 (i 0) (i 1) + dotAt H Wr1 (i 0) (i 1))
    + (affineAt A2 Wl2 b2 (i 0) (i 1) + dotAt H Wr2 (i 0) (i 1))) zeroF

/-- Row r of the rectified layer reads row r of its two inputs only. -/
theorem sageLayer_rows (A H : (⟨2, ![R, K]⟩ : Shape).Idx → EReal) (A' H' : (⟨2, ![R', K]⟩ : Shape).Idx → EReal)
    (Wl : (⟨2, ![K, N]⟩ : Shape).Idx → EReal) (b : (⟨2, ![1, N]⟩ : Shape).Idx → EReal) (Wr : (⟨2, ![K, N]⟩ : Shape).Idx → EReal)
    (r : Fin R) (r' : Fin R') (g : Fin N)
    (hA : ∀ k : Fin K, A (ix2 r k) = A' (ix2 r' k)) (hH : ∀ k : Fin K, H (ix2 r k) = H' (ix2 r' k)) :
    sageLayer A H Wl b Wr (ix2 r g) = sageLayer A' H' Wl b Wr (ix2 r' g) := by
  show max (affineAt A Wl b r g + dotAt H Wr r g) zeroF = max (affineAt A' Wl b r' g + dotAt H' Wr r' g) zeroF
  rw [affineAt_rows A A' Wl b r r' g hA, dotAt_rows H H' Wr r r' g hH]

/-- A tile of rows of the one-relation result is that result of the tiles of rows of its inputs. -/
theorem headOut_rows (A H : (⟨2, ![R, K]⟩ : Shape).Idx → EReal) (A' H' : (⟨2, ![R', K]⟩ : Shape).Idx → EReal)
    (Wl : (⟨2, ![K, N]⟩ : Shape).Idx → EReal) (b : (⟨2, ![1, N]⟩ : Shape).Idx → EReal) (Wr : (⟨2, ![K, N]⟩ : Shape).Idx → EReal)
    (Wh : (⟨2, ![N, 1]⟩ : Shape).Idx → EReal) (bh : (⟨2, ![1, 1]⟩ : Shape).Idx → EReal)
    (r : Fin R) (r' : Fin R') (u : Fin 1)
    (hA : ∀ k : Fin K, A (ix2 r k) = A' (ix2 r' k)) (hH : ∀ k : Fin K, H (ix2 r k) = H' (ix2 r' k)) :
    headOut A H Wl b Wr Wh bh (ix2 r u) = headOut A' H' Wl b Wr Wh bh (ix2 r' u) := by
  show affineAt (sageLayer A H Wl b Wr) Wh bh r u = affineAt (sageLayer A' H' Wl b Wr) Wh bh r' u
  exact affineAt_rows _ _ Wh bh r r' u (fun g => sageLayer_rows A H A' H' Wl b Wr r r' g hA hH)

/-- A tile of rows of the two-relation result is that result of the tiles of rows of its inputs. -/
theorem dualOut_rows (A1 H A2 : (⟨2, ![R, K]⟩ : Shape).Idx → EReal) (A1' H' A2' : (⟨2, ![R', K]⟩ : Shape).Idx → EReal)
    (Wl1 : (⟨2, ![K, N]⟩ : Shape).Idx → EReal) (b1 : (⟨2, ![1, N]⟩ : Shape).Idx → EReal) (Wr1 : (⟨2, ![K, N]⟩ : Shape).Idx → EReal)
    (Wl2 : (⟨2, ![K, N]⟩ : Shape).Idx → EReal) (b2 : (⟨2, ![1, N]⟩ : Shape).Idx → EReal) (Wr2 : (⟨2, ![K, N]⟩ : Shape).Idx → EReal)
    (r : Fin R) (r' : Fin R') (g : Fin N)
    (h1 : ∀ k : Fin K, A1 (ix2 r k) = A1' (ix2 r' k)) (hH : ∀ k : Fin K, H (ix2 r k) = H' (ix2 r' k))
    (h2 : ∀ k : Fin K, A2 (ix2 r k) = A2' (ix2 r' k)) :
    dualOut A1 H Wl1 b1 Wr1 A2 Wl2 b2 Wr2 (ix2 r g) = dualOut A1' H' Wl1 b1 Wr1 A2' Wl2 b2 Wr2 (ix2 r' g) := by
  show max ((affineAt A1 Wl1 b1 r g + dotAt H Wr1 r g) + (affineAt A2 Wl2 b2 r g + dotAt H Wr2 r g)) zeroF
     = max ((affineAt A1' Wl1 b1 r' g + dotAt H' Wr1 r' g) + (affineAt A2' Wl2 b2 r' g + dotAt H' Wr2 r' g)) zeroF
  rw [affineAt_rows A1 A1' Wl1 b1 r r' g h1, dotAt_rows H H' Wr1 r r' g hH,
    affineAt_rows A2 A2' Wl2 b2 r r' g h2, dotAt_rows H H' Wr2 r r' g hH]

/-- One relation's pre-activation in a body tile's grouping, the bias added last, is the reference's grouping. -/
theorem pre_regroup (A H : (⟨2, ![R, K]⟩ : Shape).Idx → EReal) (Wl : (⟨2, ![K, N]⟩ : Shape).Idx → EReal)
    (b : (⟨2, ![1, N]⟩ : Shape).Idx → EReal) (Wr : (⟨2, ![K, N]⟩ : Shape).Idx → EReal) (r : Fin R) (g : Fin N) :
    (dotAt A Wl r g + dotAt H Wr r g) + b (ix2 (0 : Fin 1) g) = affineAt A Wl b r g + dotAt H Wr r g := by
  show (dotAt A Wl r g + dotAt H Wr r g) + b (ix2 (0 : Fin 1) g) = (dotAt A Wl r g + b (ix2 (0 : Fin 1) g)) + dotAt H Wr r g
  exact add_right_comm _ _ _

/-- A body tile of the one-relation kernel, as the body spells it, read at (r, 0). -/
theorem head_body_at (a h : FVec Ideal ⟨2, ![R, K]⟩ .f32) (Wl Wr : FVec Ideal ⟨2, ![K, N]⟩ .f32)
    (b : FVec Ideal ⟨2, ![1, N]⟩ .f32) (Wh : FVec Ideal ⟨2, ![N, 1]⟩ .f32) (bh : FVec Ideal ⟨2, ![1, 1]⟩ .f32)
    (hlt : FTy.bf16.bits < FTy.f32.bits)
    (hca : (⟨2, ![R, K]⟩ : Shape).ShapeCasts ⟨2, ![R, K]⟩)
    (hcb : (⟨2, ![1, N]⟩ : Shape).ShapeCasts ⟨2, ![1, N]⟩) (hbb : (⟨2, ![1, N]⟩ : Shape).Broadcasts ⟨2, ![R, N]⟩)
    (hch : (⟨2, ![1, 1]⟩ : Shape).ShapeCasts ⟨2, ![1, 1]⟩) (hbh : (⟨2, ![1, 1]⟩ : Shape).Broadcasts ⟨2, ![R, 1]⟩)
    (r : Fin R) (u : Fin 1) :
    addf (matmul (DotDims.plain R N 1) none
          (truncf .bf16 (maximumf
            (addf (addf
              (matmul (DotDims.plain R K N) none (truncf .bf16 (shapeCast ⟨2, ![R, K]⟩ a hca) hlt) (truncf .bf16 Wl hlt)
                (constant ⟨2, ![R, N]⟩ .f32 0x00000000#32))
              (matmul (DotDims.plain R K N) none (truncf .bf16 h hlt) (truncf .bf16 Wr hlt)
                (constant ⟨2, ![R, N]⟩ .f32 0x00000000#32)))
              (broadcastTo ⟨2, ![R, N]⟩ (shapeCast ⟨2, ![1, N]⟩ b hcb) hbb))
            (broadcast ⟨2, ![R, N]⟩ (Scalar.ofBits (F := Ideal) .f32 0x00000000#32))) hlt)
          (truncf .bf16 Wh hlt) (constant ⟨2, ![R, 1]⟩ .f32 0x00000000#32))
        (broadcastTo ⟨2, ![R, 1]⟩ (shapeCast ⟨2, ![1, 1]⟩ bh hch) hbh) (ix2 r u)
      = headOut a h Wl b Wr Wh bh (ix2 r u) := by
  refine (kernel_affine_at _ Wh bh hlt hlt hch hbh r u).trans ?_
  show affineAt _ Wh bh r u = affineAt (sageLayer a h Wl b Wr) Wh bh r u
  refine affineAt_rows _ _ Wh bh r r u (fun g => ?_)
  rw [maximumf_apply, addf_apply, addf_apply, broadcast_apply, kernel_dot_at, kernel_dot_at,
    Cert.LibBlockLayout.rowBroadcast_at, shapeCast_self, shapeCast_self, pre_regroup]
  rfl

/-- A body tile of the two-relation kernel, as the body spells it, read at (r, g). -/
theorem dual_body_at (x a1 a2 : FVec Ideal ⟨2, ![R, K]⟩ .f32) (Wl1 Wr1 Wl2 Wr2 : FVec Ideal ⟨2, ![K, N]⟩ .f32)
    (b1 b2 : FVec Ideal ⟨2, ![1, N]⟩ .f32)
    (hlt : FTy.bf16.bits < FTy.f32.bits)
    (hca : (⟨2, ![R, K]⟩ : Shape).ShapeCasts ⟨2, ![R, K]⟩)
    (hcb : (⟨2, ![1, N]⟩ : Shape).ShapeCasts ⟨2, ![1, N]⟩) (hbb : (⟨2, ![1, N]⟩ : Shape).Broadcasts ⟨2, ![R, N]⟩)
    (r : Fin R) (g : Fin N) :
    maximumf
        (addf
          (addf (addf
              (matmul (DotDims.plain R K N) none (truncf .bf16 (shapeCast ⟨2, ![R, K]⟩ a1 hca) hlt) (truncf .bf16 Wl1 hlt)
                (constant ⟨2, ![R, N]⟩ .f32 0x00000000#32))
              (matmul (DotDims.plain R K N) none (truncf .bf16 x hlt) (truncf .bf16 Wr1 hlt)
                (constant ⟨2, ![R, N]⟩ .f32 0x00000000#32)))
            (broadcastTo ⟨2, ![R, N]⟩ (shapeCast ⟨2, ![1, N]⟩ b1 hcb) hbb))
          (addf (addf
              (matmul (DotDims.plain R K N) none (truncf .bf16 (shapeCast ⟨2, ![R, K]⟩ a2 hca) hlt) (truncf .bf16 Wl2 hlt)
                (constant ⟨2, ![R, N]⟩ .f32 0x00000000#32))
              (matmul (DotDims.plain R K N) none (truncf .bf16 x hlt) (truncf .bf16 Wr2 hlt)
                (constant ⟨2, ![R, N]⟩ .f32 0x00000000#32)))
            (broadcastTo ⟨2, ![R, N]⟩ (shapeCast ⟨2, ![1, N]⟩ b2 hcb) hbb)))
        (broadcast ⟨2, ![R, N]⟩ (Scalar.ofBits (F := Ideal) .f32 0x00000000#32)) (ix2 r g)
      = dualOut a1 x Wl1 b1 Wr1 a2 Wl2 b2 Wr2 (ix2 r g) := by
  rw [maximumf_apply, addf_apply, addf_apply, addf_apply, addf_apply, addf_apply, broadcast_apply,
    kernel_dot_at, kernel_dot_at, kernel_dot_at, kernel_dot_at,
    Cert.LibBlockLayout.rowBroadcast_at, Cert.LibBlockLayout.rowBroadcast_at,
    shapeCast_self, shapeCast_self, shapeCast_self, shapeCast_self, pre_regroup, pre_regroup]
  rfl

end Cert.Hetero

end
-- ==== Proof.DualPf.lean ====
/-
  The node set that receives two relations (x_pfas): what region 0 leaves in its result array.

  The region's grid has 10 points; point t brings rows 2000·t … 2000·t + 1999 of the two aggregated-feature arrays and of
  the node features into the body, together with the four whole weight matrices and the two bias rows, and writes back
  rows 2000·t … 2000·t + 1999 of the [20000, 128] result.  Entry (r, g) of a tile's result reads row r of the three
  feature tiles only, so the tile is the restriction to those rows of ONE function of the whole arrays as the region
  finds them (`Cert.Hetero.dualOut`); the 10 tiles cover the result, so it ends holding that function.
-/
import proofs.«166034_j32822140076342_1_alg».proof.Proof.Gen.KernelIdeal.Frame
import proofs.«166034_j32822140076342_1_alg».proof.Proof.LibHeteroLayers
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.DualPf

open Cert.KernelIdeal Cert.KernelIdeal.Gen Idealize.ShloMosaic.ValueIdx Cert.SageLayers Cert.Hetero

variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the region finds. -/
def G (c : Dev nD) : S20000x128.Idx → EReal :=
  dualOut (R := 20000) (K := 128) (N := 128) (V c main_v56 : S20000x128.Idx → EReal) (V c main_arg0 : S20000x128.Idx → EReal)
    (V c main_arg14 : S128x128.Idx → EReal) (V c main_v76 : S1x128.Idx → EReal) (V c main_arg16 : S128x128.Idx → EReal)
    (V c main_v75 : S20000x128.Idx → EReal)
    (V c main_arg20 : S128x128.Idx → EReal) (V c main_v77 : S1x128.Idx → EReal) (V c main_arg22 : S128x128.Idx → EReal)

/-- The printed index maps over the grid: the three feature windows and the result window move down the rows with the
    point, every other window stays on its whole array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The body's stored value at (r, g) is the two-relation result of its nine loaded tiles at (r, g). -/
theorem pay_at (v0 v2 v5 : Vec Ideal S2000x128 .f32) (v8 v10 v12 v14 : Vec Ideal S128x128 .f32) (v19 v26 : Vec Ideal S1x128 .f32)
    (r : Fin 2000) (g : Fin 128) :
    k0_pay1 v0 v2 v5 v8 v10 v12 v14 v19 v26 (ix2 r g)
      = dualOut (R := 2000) (K := 128) (N := 128) v2 v0 v8 v19 v10 v5 v12 v26 v14 (ix2 r g) := by
  unfold k0_pay1
  exact dual_body_at (R := 2000) (K := 128) (N := 128) v0 v2 v5 v8 v10 v12 v14 v19 v26 bitsLt_bf16_f32 _ _ _ r g

/-- Row r of a feature tile at point t is row 2000·t + r of its array (windows 0, 1 and 5). -/
theorem blk0_at (c : Dev nD) (t : Fin cfg0.N) (r : Fin 2000) (k : Fin 128) (q : Fin 20000) (hq : q.val = t.val * 2000 + r.val) :
    (iblk0 V c 0 t : S2000x128.Idx → EReal) (ix2 r k) = (V c main_v56 : S20000x128.Idx → EReal) (ix2 q k) := by
  obtain ⟨e0, e1, -⟩ := idx_facts t
  unfold iblk0
  rw [View.read_apply]
  show V c main_v56 _ = V c main_v56 _
  congr 1
  funext a
  apply Fin.ext
  match a with
  | ⟨0, _⟩ => show win0_0.index t (0 : Fin 2) * 2000 + 1 * r.val = q.val; rw [e0, hq]; omega
  | ⟨1, _⟩ => show win0_0.index t (1 : Fin 2) * 128 + 1 * k.val = k.val; rw [e1]; omega

theorem blk1_at (c : Dev nD) (t : Fin cfg0.N) (r : Fin 2000) (k : Fin 128) (q : Fin 20000) (hq : q.val = t.val * 2000 + r.val) :
    (iblk0 V c 1 t : S2000x128.Idx → EReal) (ix2 r k) = (V c main_arg0 : S20000x128.Idx → EReal) (ix2 q k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 2000 + 1 * r.val = q.val; rw [e0, hq]; omega
  | ⟨1, _⟩ => show win0_1.index t (1 : Fin 2) * 128 + 1 * k.val = k.val; rw [e1]; omega

theorem blk5_at (c : Dev nD) (t : Fin cfg0.N) (r : Fin 2000) (k : Fin 128) (q : Fin 20000) (hq : q.val = t.val * 2000 + r.val) :
    (iblk0 V c 5 t : S2000x128.Idx → EReal) (ix2 r k) = (V c main_v75 : S20000x128.Idx → EReal) (ix2 q k) := by
  obtain ⟨-, -, -, -, -, -, -, -, -, -, e0, e1, -⟩ := idx_facts t
  unfold iblk0
  rw [View.read_apply]
  show V c main_v75 _ = V c main_v75 _
  congr 1
  funext a
  apply Fin.ext
  match a with
  | ⟨0, _⟩ => show win0_5.index t (0 : Fin 2) * 2000 + 1 * r.val = q.val; rw [e0, hq]; omega
  | ⟨1, _⟩ => show win0_5.index t (1 : Fin 2) * 128 + 1 * k.val = k.val; rw [e1]; omega

/-- A weight matrix's window is its whole array at every point (windows 2, 4, 6 and 8). -/
theorem blk2 (c : Dev nD) (t : Fin cfg0.N) : (iblk0 V c 2 t : S128x128.Idx → EReal) = (V c main_arg14 : S128x128.Idx → EReal) := by
  obtain ⟨-, -, -, -, e0, e1, -⟩ := idx_facts t
  funext y
  unfold iblk0
  rw [View.read_apply]
  show V c main_arg14 _ = V c main_arg14 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk4 (c : Dev nD) (t : Fin cfg0.N) : (iblk0 V c 4 t : S128x128.Idx → EReal) = (V c main_arg16 : S128x128.Idx → EReal) := by
  obtain ⟨-, -, -, -, -, -, -, -, e0, e1, -⟩ := idx_facts t
  funext y
  unfold iblk0
  rw [View.read_apply]
  show V c main_arg16 _ = V c main_arg16 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk6 (c : Dev nD) (t : Fin cfg0.N) : (iblk0 V c 6 t : S128x128.Idx → EReal) = (V c main_arg20 : S128x128.Idx → EReal) := by
  obtain ⟨-, -, -, -, -, -, -, -, -, -, -, -, e0, e1, -⟩ := idx_facts t
  funext y
  unfold iblk0
  rw [View.read_apply]
  show V c main_arg20 _ = V c main_arg20 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem blk8 (c : Dev nD) (t : Fin cfg0.N) : (iblk0 V c 8 t : S128x128.Idx → EReal) = (V c main_arg22 : S128x128.Idx → EReal) := by
  obtain ⟨-, -, -, -, -, -, -, -, -, -, -, -, -, -, -, -, e0, e1, -⟩ := idx_facts t
  funext y
  unfold iblk0
  rw [View.read_apply]
  show V c main_arg22 _ = V c main_arg22 _
  congr 1
  funext a
  apply Fin.ext
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- A bias row's window is its whole array at every point (windows 3 and 7). -/
theorem blk3 (c : Dev nD) (t : Fin cfg0.N) : (iblk0 V c 3 t : S1x128.Idx → EReal) = (V c main_v76 : S1x128.Idx → EReal) := by
  obtain ⟨-, -, -, -, -, -, e0, e1, -⟩ := idx_facts t
  funext y
  unfold iblk0
  rw [View.read_apply]
  show V c main_v76 _ = V c main_v76 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk7 (c : Dev nD) (t : Fin cfg0.N) : (iblk0 V c 7 t : S1x128.Idx → EReal) = (V c main_v77 : S1x128.Idx → EReal) := by
  obtain ⟨-, -, -, -, -, -, -, -, -, -, -, -, -, -, e0, e1, -⟩ := idx_facts t
  funext y
  unfold iblk0
  rw [View.read_apply]
  show V c main_v77 _ = V c main_v77 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- What point t's body stores, at (r, g), is the result function at (2000·t + r, g). -/
theorem tile_at (c : Dev nD) (t : Fin cfg0.N) (r : Fin 2000) (g : Fin 128) (q : Fin 20000) (hq : q.val = t.val * 2000 + r.val) :
    k0_pay1 (iblk0 V c 1 t) (iblk0 V c 0 t) (iblk0 V c 5 t) (iblk0 V c 2 t) (iblk0 V c 4 t) (iblk0 V c 6 t) (iblk0 V c 8 t) (iblk0 V c 3 t) (iblk0 V c 7 t) (ix2 r g)
      = G V c (ix2 q g) := by
  refine (pay_at _ _ _ _ _ _ _ _ _ r g).trans ?_
  rw [blk2 V c t, blk3 V c t, blk4 V c t, blk6 V c t, blk7 V c t, blk8 V c t]
  exact dualOut_rows _ _ _ _ _ _ _ _ _ _ _ _ r q g (fun k => blk0_at V c t r k q hq) (fun k => blk1_at V c t r k q hq)
    (fun k => blk5_at V c t r k q hq)

/-- The same at any index of the tile, the result function read where the write-back's rectangle puts the element. -/
theorem tile_eq (c : Dev nD) (t : Fin cfg0.N) (j : S2000x128.Idx) :
    k0_pay1 (iblk0 V c 1 t) (iblk0 V c 0 t) (iblk0 V c 5 t) (iblk0 V c 2 t) (iblk0 V c 4 t) (iblk0 V c 6 t) (iblk0 V c 8 t) (iblk0 V c 3 t) (iblk0 V c 7 t) j
      = G V c (((cfg0.win 9).blk t).view.emb j) := by
  obtain ⟨-, -, -, -, -, -, -, -, -, -, -, -, -, -, -, -, -, -, e0, e1⟩ := idx_facts t
  have hN : cfg0.N = 10 := N_0
  have ht : t.val < 10 := lt_of_lt_of_eq t.isLt hN
  have hj0 : (j 0).val < 2000 := (j 0).isLt
  have hj1 : (j 1).val < 128 := (j 1).isLt
  have key := tile_at V c t (j 0) (j 1) ⟨t.val * 2000 + (j 0).val, by omega⟩ rfl
  refine ((congrArg _ (eq_ix2 j)).trans key).trans (congrArg (G V c) ?_)
  funext a
  apply Fin.ext
  match a with
  | ⟨0, _⟩ => show t.val * 2000 + (j 0).val = win0_9.index t (0 : Fin 2) * 2000 + 1 * (j 0).val; rw [e0]; omega
  | ⟨1, _⟩ => show (j 1).val = win0_9.index t (1 : Fin 2) * 128 + 1 * (j 1).val; rw [e1]; omega

/-- WHAT POINT t WRITES BACK is tile t of the result function. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S2000x128) hz, View.ld_unit_zero (S := S128x128) hz, View.ld_unit_zero (S := S1x128) hz]
  funext j
  exact tile_eq V c t j

/-- An index of the result is in point t's tile iff each coordinate is in the tile's range on its axis. -/
theorem mem_blk (t : Fin cfg0.N) (i : S20000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v78).slice (win0_9.rect t)).set ↔ _
  rw [View.set_slice_whole, Rect.mem_set_unit]
  exact Iff.rfl

/-- Row i is in the tile of point i / 2000: the tiles cover the result. -/
theorem cover (i : S20000x128.Idx) : ∃ t : Fin cfg0.N, (cfg0.win 9).flush t = true ∧ i ∈ ((cfg0.win 9).blk t).view.set := by
  have hN : cfg0.N = 10 := N_0
  have hi0 : (i 0).val < 20000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, -, -, -, -, -, -, -, -, e0, e1⟩ := idx_facts t
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 128 ≤ (i 1).val ∧ (i 1).val < win0_9.index t (1 : Fin 2) * 128 + 128; rw [e1]; omega

/-- THE RESULT ARRAY after the region is the result function of the arrays the region found. -/
theorem final (c : Dev nD) : (dat0 V c).arrAt 9 cfg0.N = G V c :=
  (dat0 V c).arrAt_eq_of_cover 9 (G V c) (fun t _ => flushed_eq V c t) cover

end Cert.KernelIdeal.DualPf

end
-- ==== Proof.HeadGw.lean ====
/-
  The first one-relation node set (x_gw) and its head: what region 1 leaves in its result array.

  The region's grid has 50 points; point t brings rows 2000·t … 2000·t + 1999 of the aggregated features and of the
  node features into the body, together with the whole weight matrices and bias rows, and writes back rows
  2000·t … 2000·t + 1999 of the [100000, 1] result.  Row r of a tile's result reads row r of the two feature tiles only, so
  the tile is the restriction to those rows of ONE function of the whole arrays as the region finds them
  (`Cert.Hetero.headOut`); the 50 tiles cover the result, so it ends holding that function.
-/
import proofs.«166034_j32822140076342_1_alg».proof.Proof.Gen.KernelIdeal.Frame
import proofs.«166034_j32822140076342_1_alg».proof.Proof.LibHeteroLayers
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HeadGw

open Cert.KernelIdeal Cert.KernelIdeal.Gen Idealize.ShloMosaic.ValueIdx Cert.SageLayers Cert.Hetero

variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the region finds. -/
def G (c : Dev nD) : S100000x1.Idx → EReal :=
  headOut (R := 100000) (K := 128) (N := 128) (V c main_v18 : S100000x128.Idx → EReal) (V c main_arg1 : S100000x128.Idx → EReal)
    (V c main_arg11 : S128x128.Idx → EReal) (V c main_v79 : S1x128.Idx → EReal) (V c main_arg13 : S128x128.Idx → EReal)
    (V c main_arg23 : S128x1.Idx → EReal) (V c main_v80 : S1x1.Idx → EReal)

/-- The printed index maps over the grid: the two feature windows and the result window move down the rows with the
    point, every other window stays on its whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The body's stored value at (r, 0) is the one-relation result of its seven loaded tiles at (r, 0). -/
theorem pay_at (v0 v3 : Vec Ideal S2000x128 .f32) (v5 v7 : Vec Ideal S128x128 .f32) (v12 : Vec Ideal S1x128 .f32)
    (v19 : Vec Ideal S128x1 .f32) (v22 : Vec Ideal S1x1 .f32) (r : Fin 2000) (u : Fin 1) :
    k1_pay1 v0 v3 v5 v7 v12 v19 v22 (ix2 r u)
      = headOut (R := 2000) (K := 128) (N := 128) v0 v3 v5 v12 v7 v19 v22 (ix2 r u) := by
  unfold k1_pay1
  exact head_body_at (R := 2000) (K := 128) (N := 128) v0 v3 v5 v7 v12 v19 v22 bitsLt_bf16_f32 _ _ _ _ _ r u

/-- Row r of the aggregated-feature tile at point t is row 2000·t + r of the array. -/
theorem blk0_at (c : Dev nD) (t : Fin cfg1.N) (r : Fin 2000) (k : Fin 128) (q : Fin 100000) (hq : q.val = t.val * 2000 + r.val) :
    (iblk1 V c 0 t : S2000x128.Idx → EReal) (ix2 r k) = (V c main_v18 : S100000x128.Idx → EReal) (ix2 q k) := by
  obtain ⟨e0, e1, -⟩ := idx_facts t
  unfold iblk1
  rw [View.read_apply]
  show V c main_v18 _ = V c main_v18 _
  congr 1
  funext a
  apply Fin.ext
  match a with
  | ⟨0, _⟩ => show win1_0.index t (0 : Fin 2) * 2000 + 1 * r.val = q.val; rw [e0, hq]; omega
  | ⟨1, _⟩ => show win1_0.index t (1 : Fin 2) * 128 + 1 * k.val = k.val; rw [e1]; omega

/-- Row r of the node-feature tile at point t is row 2000·t + r of the array. -/
theorem blk1_at (c : Dev nD) (t : Fin cfg1.N) (r : Fin 2000) (k : Fin 128) (q : Fin 100000) (hq : q.val = t.val * 2000 + r.val) :
    (iblk1 V c 1 t : S2000x128.Idx → EReal) (ix2 r k) = (V c main_arg1 : S100000x128.Idx → EReal) (ix2 q k) := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t (0 : Fin 2) * 2000 + 1 * r.val = q.val; rw [e0, hq]; omega
  | ⟨1, _⟩ => show win1_1.index t (1 : Fin 2) * 128 + 1 * k.val = k.val; rw [e1]; omega

/-- The neighbour weight's window is its whole array at every point. -/
theorem blk2 (c : Dev nD) (t : Fin cfg1.N) : (iblk1 V c 2 t : S128x128.Idx → EReal) = (V c main_arg11 : S128x128.Idx → EReal) := by
  obtain ⟨-, -, -, -, e0, e1, -⟩ := idx_facts t
  funext y
  unfold iblk1
  rw [View.read_apply]
  show V c main_arg11 _ = V c main_arg11 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's window is its whole array at every point. -/
theorem blk3 (c : Dev nD) (t : Fin cfg1.N) : (iblk1 V c 3 t : S1x128.Idx → EReal) = (V c main_v79 : S1x128.Idx → EReal) := by
  obtain ⟨-, -, -, -, -, -, e0, e1, -⟩ := idx_facts t
  funext y
  unfold iblk1
  rw [View.read_apply]
  show V c main_v79 _ = V c main_v79 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The root weight's window is its whole array at every point. -/
theorem blk4 (c : Dev nD) (t : Fin cfg1.N) : (iblk1 V c 4 t : S128x128.Idx → EReal) = (V c main_arg13 : S128x128.Idx → EReal) := by
  obtain ⟨-, -, -, -, -, -, -, -, e0, e1, -⟩ := idx_facts t
  funext y
  unfold iblk1
  rw [View.read_apply]
  show V c main_arg13 _ = V c main_arg13 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The head weight's window is its whole array at every point. -/
theorem blk5 (c : Dev nD) (t : Fin cfg1.N) : (iblk1 V c 5 t : S128x1.Idx → EReal) = (V c main_arg23 : S128x1.Idx → EReal) := by
  obtain ⟨-, -, -, -, -, -, -, -, -, -, e0, e1, -⟩ := idx_facts t
  funext y
  unfold iblk1
  rw [View.read_apply]
  show V c main_arg23 _ = V c main_arg23 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 1 + 1 * (y 1).val = (y 1).val; rw [e1]; omega

/-- The head bias's window is its whole array at every point. -/
theorem blk6 (c : Dev nD) (t : Fin cfg1.N) : (iblk1 V c 6 t : S1x1.Idx → EReal) = (V c main_v80 : S1x1.Idx → EReal) := by
  obtain ⟨-, -, -, -, -, -, -, -, -, -, -, -, e0, e1, -⟩ := idx_facts t
  funext y
  unfold iblk1
  rw [View.read_apply]
  show V c main_v80 _ = V c main_v80 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 1 + 1 * (y 1).val = (y 1).val; rw [e1]; omega

/-- What point t's body stores, at (r, 0), is the result function at row 2000·t + r. -/
theorem tile_at (c : Dev nD) (t : Fin cfg1.N) (r : Fin 2000) (u : Fin 1) (q : Fin 100000) (hq : q.val = t.val * 2000 + r.val) :
    k1_pay1 (iblk1 V c 0 t) (iblk1 V c 1 t) (iblk1 V c 2 t) (iblk1 V c 4 t) (iblk1 V c 3 t) (iblk1 V c 5 t) (iblk1 V c 6 t) (ix2 r u)
      = G V c (ix2 q u) := by
  refine (pay_at _ _ _ _ _ _ _ r u).trans ?_
  rw [blk2 V c t, blk3 V c t, blk4 V c t, blk5 V c t, blk6 V c t]
  exact headOut_rows _ _ _ _ _ _ _ _ _ r q u (fun k => blk0_at V c t r k q hq) (fun k => blk1_at V c t r k q hq)

/-- The same at any index of the tile, the result function read where the write-back's rectangle puts the element. -/
theorem tile_eq (c : Dev nD) (t : Fin cfg1.N) (j : S2000x1.Idx) :
    k1_pay1 (iblk1 V c 0 t) (iblk1 V c 1 t) (iblk1 V c 2 t) (iblk1 V c 4 t) (iblk1 V c 3 t) (iblk1 V c 5 t) (iblk1 V c 6 t) j
      = G V c (((cfg1.win 7).blk t).view.emb j) := by
  obtain ⟨-, -, -, -, -, -, -, -, -, -, -, -, -, -, e0, e1⟩ := idx_facts t
  have hN : cfg1.N = 50 := N_1
  have ht : t.val < 50 := lt_of_lt_of_eq t.isLt hN
  have hj0 : (j 0).val < 2000 := (j 0).isLt
  have hj1 : (j 1).val < 1 := (j 1).isLt
  have key := tile_at V c t (j 0) (j 1) ⟨t.val * 2000 + (j 0).val, by omega⟩ rfl
  refine ((congrArg _ (eq_ix2 j)).trans key).trans (congrArg (G V c) ?_)
  funext a
  apply Fin.ext
  match a with
  | ⟨0, _⟩ => show t.val * 2000 + (j 0).val = win1_7.index t (0 : Fin 2) * 2000 + 1 * (j 0).val; rw [e0]; omega
  | ⟨1, _⟩ => show (j 1).val = win1_7.index t (1 : Fin 2) * 1 + 1 * (j 1).val; rw [e1]; omega

/-- WHAT POINT t WRITES BACK is tile t of the result function. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz,
    View.ld_unit_zero (S := S128x1) hz, View.ld_unit_zero (S := S1x1) hz]
  funext j
  exact tile_eq V c t j

/-- An index of the result is in point t's tile iff each coordinate is in the tile's range on its axis. -/
theorem mem_blk (t : Fin cfg1.N) (i : S100000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v81).slice (win1_7.rect t)).set ↔ _
  rw [View.set_slice_whole, Rect.mem_set_unit]
  exact Iff.rfl

/-- Row i is in the tile of point i / 2000: the tiles cover the result. -/
theorem cover (i : S100000x1.Idx) : ∃ t : Fin cfg1.N, (cfg1.win 7).flush t = true ∧ i ∈ ((cfg1.win 7).blk t).view.set := by
  have hN : cfg1.N = 50 := N_1
  have hi0 : (i 0).val < 100000 := (i 0).isLt
  have hi1 : (i 1).val < 1 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 1 ≤ (i 1).val ∧ (i 1).val < win1_7.index t (1 : Fin 2) * 1 + 1; rw [e1]; omega

/-- THE RESULT ARRAY after the region is the result function of the arrays the region found. -/
theorem final (c : Dev nD) : (dat1 V c).arrAt 7 cfg1.N = G V c :=
  (dat1 V c).arrAt_eq_of_cover 7 (G V c) (fun t _ => flushed_eq V c t) cover

end Cert.KernelIdeal.HeadGw

end
-- ==== Proof.HeadSw.lean ====
/-
  The second one-relation node set (x_sw) and its head: what region 2 leaves in its result array.

  The region's grid has 10 points; point t brings rows 3000·t … 3000·t + 2999 of the aggregated features and of the
  node features into the body, together with the whole weight matrices and bias rows, and writes back rows
  3000·t … 3000·t + 2999 of the [30000, 1] result.  Row r of a tile's result reads row r of the two feature tiles only, so
  the tile is the restriction to those rows of ONE function of the whole arrays as the region finds them
  (`Cert.Hetero.headOut`); the 10 tiles cover the result, so it ends holding that function.
-/
import proofs.«166034_j32822140076342_1_alg».proof.Proof.Gen.KernelIdeal.Frame
import proofs.«166034_j32822140076342_1_alg».proof.Proof.LibHeteroLayers
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HeadSw

open Cert.KernelIdeal Cert.KernelIdeal.Gen Idealize.ShloMosaic.ValueIdx Cert.SageLayers Cert.Hetero

variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the region finds. -/
def G (c : Dev nD) : S30000x1.Idx → EReal :=
  headOut (R := 30000) (K := 128) (N := 128) (V c main_v37 : S30000x128.Idx → EReal) (V c main_arg2 : S30000x128.Idx → EReal)
    (V c main_arg17 : S128x128.Idx → EReal) (V c main_v82 : S1x128.Idx → EReal) (V c main_arg19 : S128x128.Idx → EReal)
    (V c main_arg25 : S128x1.Idx → EReal) (V c main_v83 : S1x1.Idx → EReal)

/-- The printed index maps over the grid: the two feature windows and the result window move down the rows with the
    point, every other window stays on its whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The body's stored value at (r, 0) is the one-relation result of its seven loaded tiles at (r, 0). -/
theorem pay_at (v0 v3 : Vec Ideal S3000x128 .f32) (v5 v7 : Vec Ideal S128x128 .f32) (v12 : Vec Ideal S1x128 .f32)
    (v19 : Vec Ideal S128x1 .f32) (v22 : Vec Ideal S1x1 .f32) (r : Fin 3000) (u : Fin 1) :
    k2_pay1 v0 v3 v5 v7 v12 v19 v22 (ix2 r u)
      = headOut (R := 3000) (K := 128) (N := 128) v0 v3 v5 v12 v7 v19 v22 (ix2 r u) := by
  unfold k2_pay1
  exact head_body_at (R := 3000) (K := 128) (N := 128) v0 v3 v5 v7 v12 v19 v22 bitsLt_bf16_f32 _ _ _ _ _ r u

/-- Row r of the aggregated-feature tile at point t is row 3000·t + r of the array. -/
theorem blk0_at (c : Dev nD) (t : Fin cfg2.N) (r : Fin 3000) (k : Fin 128) (q : Fin 30000) (hq : q.val = t.val * 3000 + r.val) :
    (iblk2 V c 0 t : S3000x128.Idx → EReal) (ix2 r k) = (V c main_v37 : S30000x128.Idx → EReal) (ix2 q k) := by
  obtain ⟨e0, e1, -⟩ := idx_facts t
  unfold iblk2
  rw [View.read_apply]
  show V c main_v37 _ = V c main_v37 _
  congr 1
  funext a
  apply Fin.ext
  match a with
  | ⟨0, _⟩ => show win2_0.index t (0 : Fin 2) * 3000 + 1 * r.val = q.val; rw [e0, hq]; omega
  | ⟨1, _⟩ => show win2_0.index t (1 : Fin 2) * 128 + 1 * k.val = k.val; rw [e1]; omega

/-- Row r of the node-feature tile at point t is row 3000·t + r of the array. -/
theorem blk1_at (c : Dev nD) (t : Fin cfg2.N) (r : Fin 3000) (k : Fin 128) (q : Fin 30000) (hq : q.val = t.val * 3000 + r.val) :
    (iblk2 V c 1 t : S3000x128.Idx → EReal) (ix2 r k) = (V c main_arg2 : S30000x128.Idx → EReal) (ix2 q k) := by
  obtain ⟨-, -, e0, e1, -⟩ := idx_facts t
  unfold iblk2
  rw [View.read_apply]
  show V c main_arg2 _ = V c main_arg2 _
  congr 1
  funext a
  apply Fin.ext
  match a with
  | ⟨0, _⟩ => show win2_1.index t (0 : Fin 2) * 3000 + 1 * r.val = q.val; rw [e0, hq]; omega
  | ⟨1, _⟩ => show win2_1.index t (1 : Fin 2) * 128 + 1 * k.val = k.val; rw [e1]; omega

/-- The neighbour weight's window is its whole array at every point. -/
theorem blk2 (c : Dev nD) (t : Fin cfg2.N) : (iblk2 V c 2 t : S128x128.Idx → EReal) = (V c main_arg17 : S128x128.Idx → EReal) := by
  obtain ⟨-, -, -, -, e0, e1, -⟩ := idx_facts t
  funext y
  unfold iblk2
  rw [View.read_apply]
  show V c main_arg17 _ = V c main_arg17 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The bias row's window is its whole array at every point. -/
theorem blk3 (c : Dev nD) (t : Fin cfg2.N) : (iblk2 V c 3 t : S1x128.Idx → EReal) = (V c main_v82 : S1x128.Idx → EReal) := by
  obtain ⟨-, -, -, -, -, -, e0, e1, -⟩ := idx_facts t
  funext y
  unfold iblk2
  rw [View.read_apply]
  show V c main_v82 _ = V c main_v82 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The root weight's window is its whole array at every point. -/
theorem blk4 (c : Dev nD) (t : Fin cfg2.N) : (iblk2 V c 4 t : S128x128.Idx → EReal) = (V c main_arg19 : S128x128.Idx → EReal) := by
  obtain ⟨-, -, -, -, -, -, -, -, e0, e1, -⟩ := idx_facts t
  funext y
  unfold iblk2
  rw [View.read_apply]
  show V c main_arg19 _ = V c main_arg19 _
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The head weight's window is its whole array at every point. -/
theorem blk5 (c : Dev nD) (t : Fin cfg2.N) : (iblk2 V c 5 t : S128x1.Idx → EReal) = (V c main_arg25 : S128x1.Idx → EReal) := by
  obtain ⟨-, -, -, -, -, -, -, -, -, -, e0, e1, -⟩ := idx_facts t
  funext y
  unfold iblk2
  rw [View.read_apply]
  show V c main_arg25 _ = V c main_arg25 _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 1 + 1 * (y 1).val = (y 1).val; rw [e1]; omega

/-- The head bias's window is its whole array at every point. -/
theorem blk6 (c : Dev nD) (t : Fin cfg2.N) : (iblk2 V c 6 t : S1x1.Idx → EReal) = (V c main_v83 : S1x1.Idx → EReal) := by
  obtain ⟨-, -, -, -, -, -, -, -, -, -, -, -, e0, e1, -⟩ := idx_facts t
  funext y
  unfold iblk2
  rw [View.read_apply]
  show V c main_v83 _ = V c main_v83 _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 1 + 1 * (y 1).val = (y 1).val; rw [e1]; omega

/-- What point t's body stores, at (r, 0), is the result function at row 3000·t + r. -/
theorem tile_at (c : Dev nD) (t : Fin cfg2.N) (r : Fin 3000) (u : Fin 1) (q : Fin 30000) (hq : q.val = t.val * 3000 + r.val) :
    k2_pay1 (iblk2 V c 0 t) (iblk2 V c 1 t) (iblk2 V c 2 t) (iblk2 V c 4 t) (iblk2 V c 3 t) (iblk2 V c 5 t) (iblk2 V c 6 t) (ix2 r u)
      = G V c (ix2 q u) := by
  refine (pay_at _ _ _ _ _ _ _ r u).trans ?_
  rw [blk2 V c t, blk3 V c t, blk4 V c t, blk5 V c t, blk6 V c t]
  exact headOut_rows _ _ _ _ _ _ _ _ _ r q u (fun k => blk0_at V c t r k q hq) (fun k => blk1_at V c t r k q hq)

/-- The same at any index of the tile, the result function read where the write-back's rectangle puts the element. -/
theorem tile_eq (c : Dev nD) (t : Fin cfg2.N) (j : S3000x1.Idx) :
    k2_pay1 (iblk2 V c 0 t) (iblk2 V c 1 t) (iblk2 V c 2 t) (iblk2 V c 4 t) (iblk2 V c 3 t) (iblk2 V c 5 t) (iblk2 V c 6 t) j
      = G V c (((cfg2.win 7).blk t).view.emb j) := by
  obtain ⟨-, -, -, -, -, -, -, -, -, -, -, -, -, -, e0, e1⟩ := idx_facts t
  have hN : cfg2.N = 10 := N_2
  have ht : t.val < 10 := lt_of_lt_of_eq t.isLt hN
  have hj0 : (j 0).val < 3000 := (j 0).isLt
  have hj1 : (j 1).val < 1 := (j 1).isLt
  have key := tile_at V c t (j 0) (j 1) ⟨t.val * 3000 + (j 0).val, by omega⟩ rfl
  refine ((congrArg _ (eq_ix2 j)).trans key).trans (congrArg (G V c) ?_)
  funext a
  apply Fin.ext
  match a with
  | ⟨0, _⟩ => show t.val * 3000 + (j 0).val = win2_7.index t (0 : Fin 2) * 3000 + 1 * (j 0).val; rw [e0]; omega
  | ⟨1, _⟩ => show (j 1).val = win2_7.index t (1 : Fin 2) * 1 + 1 * (j 1).val; rw [e1]; omega

/-- WHAT POINT t WRITES BACK is tile t of the result function. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S3000x128) hz, View.ld_unit_zero (S := S128x128) hz, View.ld_unit_zero (S := S1x128) hz,
    View.ld_unit_zero (S := S128x1) hz, View.ld_unit_zero (S := S1x1) hz]
  funext j
  exact tile_eq V c t j

/-- An index of the result is in point t's tile iff each coordinate is in the tile's range on its axis. -/
theorem mem_blk (t : Fin cfg2.N) (i : S30000x1.Idx) :
    i ∈ ((cfg2.win 7).blk t).view.set ↔ ∀ a : Fin 2, win2_7.index t a * S3000x1.size a ≤ (i a).val ∧ (i a).val < win2_7.index t a * S3000x1.size a + S3000x1.size a := by
  show i ∈ ((View.whole main_v84).slice (win2_7.rect t)).set ↔ _
  rw [View.set_slice_whole, Rect.mem_set_unit]
  exact Iff.rfl

/-- Row i is in the tile of point i / 3000: the tiles cover the result. -/
theorem cover (i : S30000x1.Idx) : ∃ t : Fin cfg2.N, (cfg2.win 7).flush t = true ∧ i ∈ ((cfg2.win 7).blk t).view.set := by
  have hN : cfg2.N = 10 := N_2
  have hi0 : (i 0).val < 30000 := (i 0).isLt
  have hi1 : (i 1).val < 1 := (i 1).isLt
  obtain ⟨t, ht⟩ : ∃ t : Fin cfg2.N, t.val = (i 0).val / 3000 := ⟨⟨(i 0).val / 3000, by rw [hN]; omega⟩, rfl⟩
  obtain ⟨-, -, -, -, -, -, -, -, -, -, -, -, -, -, e0, e1⟩ := idx_facts t
  refine ⟨t, flush2_7 t, ?_⟩
  rw [mem_blk]
  intro a
  match a with
  | ⟨0, _⟩ => show win2_7.index t (0 : Fin 2) * 3000 ≤ (i 0).val ∧ (i 0).val < win2_7.index t (0 : Fin 2) * 3000 + 3000; rw [e0, ht]; omega
  | ⟨1, _⟩ => show win2_7.index t (1 : Fin 2) * 1 ≤ (i 1).val ∧ (i 1).val < win2_7.index t (1 : Fin 2) * 1 + 1; rw [e1]; omega

/-- THE RESULT ARRAY after the region is the result function of the arrays the region found. -/
theorem final (c : Dev nD) : (dat2 V c).arrAt 7 cfg2.N = G V c :=
  (dat2 V c).arrAt_eq_of_cover 7 (G V c) (fun t _ => flushed_eq V c t) cover

end Cert.KernelIdeal.HeadSw

end
-- ==== Proof.KernelClosed.lean ====
/-
  The kernel program's three results as functions of the launch arguments.

  Each region leaves in its result array one function of the arrays it found (DualPf, HeadGw, HeadSw); what it found
  is, array by array, an argument as launched, a neighbourhood mean of arguments, or a bias vector reshaped to a row
  (Boundary); and nobody writes a result array after its region.  So the run ends with
    * the [20000, 128] result at the two-relation layer of the means over x_gw and over x_sw, the node features x_pfas,
      and the weights and biases of the two relations into x_pfas;
    * the [100000, 1] and [30000, 1] results at the one-relation layer and head of the mean over x_pfas, the node
      features x_gw (x_sw), and that relation's weights, biases and head.
-/
import proofs.«166034_j32822140076342_1_alg».proof.Proof.KernelRun
import proofs.«166034_j32822140076342_1_alg».proof.Proof.Boundary
import proofs.«166034_j32822140076342_1_alg».proof.Proof.DualPf
import proofs.«166034_j32822140076342_1_alg».proof.Proof.HeadGw
import proofs.«166034_j32822140076342_1_alg».proof.Proof.HeadSw

set_option maxRecDepth 16384

noncomputable section

namespace Cert.KernelIdeal.Closed

open Cert.KernelIdeal Cert.KernelIdeal.Gen Cert.KernelIdeal.Means Cert.Hetero
open Idealize.ShloMosaic Idealize.ShloMosaic.TcCoe Idealize.SL.Sem

variable (m : (ℓ : Loc nD τ sig) → Buf (Elt Ideal) ℓ) (ρ : Dev nD → PrngReg)

/-- The two-relation result of the launch arguments. -/
def outPf (c : Dev nD) : S20000x128.Idx → EReal :=
  dualOut (R := 20000) (K := 128) (N := 128) (meanGp (F := Ideal) (m ((c : Thread nD τ).loc main_arg1)) (m ((c : Thread nD τ).loc main_arg5)) (m ((c : Thread nD τ).loc main_arg6))) (m ((c : Thread nD τ).loc main_arg0))
    (m ((c : Thread nD τ).loc main_arg14)) (shapeCast S1x128 (m ((c : Thread nD τ).loc main_arg15)) shapeCasts_S128_S1x128) (m ((c : Thread nD τ).loc main_arg16))
    (meanSp (F := Ideal) (m ((c : Thread nD τ).loc main_arg2)) (m ((c : Thread nD τ).loc main_arg9)) (m ((c : Thread nD τ).loc main_arg10)))
    (m ((c : Thread nD τ).loc main_arg20)) (shapeCast S1x128 (m ((c : Thread nD τ).loc main_arg21)) shapeCasts_S128_S1x128) (m ((c : Thread nD τ).loc main_arg22))

/-- The first one-relation result of the launch arguments. -/
def outGw (c : Dev nD) : S100000x1.Idx → EReal :=
  headOut (R := 100000) (K := 128) (N := 128) (meanGw (F := Ideal) (m ((c : Thread nD τ).loc main_arg0)) (m ((c : Thread nD τ).loc main_arg3)) (m ((c : Thread nD τ).loc main_arg4))) (m ((c : Thread nD τ).loc main_arg1))
    (m ((c : Thread nD τ).loc main_arg11)) (shapeCast S1x128 (m ((c : Thread nD τ).loc main_arg12)) shapeCasts_S128_S1x128) (m ((c : Thread nD τ).loc main_arg13))
    (m ((c : Thread nD τ).loc main_arg23)) (shapeCast S1x1 (m ((c : Thread nD τ).loc main_arg24)) shapeCasts_S1_S1x1)

/-- The second one-relation result of the launch arguments. -/
def outSw (c : Dev nD) : S30000x1.Idx → EReal :=
  headOut (R := 30000) (K := 128) (N := 128) (meanSw (F := Ideal) (m ((c : Thread nD τ).loc main_arg0)) (m ((c : Thread nD τ).loc main_arg7)) (m ((c : Thread nD τ).loc main_arg8))) (m ((c : Thread nD τ).loc main_arg2))
    (m ((c : Thread nD τ).loc main_arg17)) (shapeCast S1x128 (m ((c : Thread nD τ).loc main_arg18)) shapeCasts_S128_S1x128) (m ((c : Thread nD τ).loc main_arg19))
    (m ((c : Thread nD τ).loc main_arg25)) (shapeCast S1x1 (m ((c : Thread nD τ).loc main_arg26)) shapeCasts_S1_S1x1)

theorem pf_eq (c : Dev nD) : W6 m ρ c (Proc.devRef .tc main_v78) = outPf m c := by
  rw [Boundary.W6_v78 m ρ c, DualPf.final (V1 m ρ) c]
  unfold DualPf.G outPf
  rw [Boundary.V1_v56 m ρ c, Boundary.V1_arg0 m ρ c, Boundary.V1_arg14 m ρ c, Boundary.V1_v76 m ρ c, Boundary.V1_arg16 m ρ c,
    Boundary.V1_v75 m ρ c, Boundary.V1_arg20 m ρ c, Boundary.V1_v77 m ρ c, Boundary.V1_arg22 m ρ c]

theorem gw_eq (c : Dev nD) : W6 m ρ c (Proc.devRef .tc main_v81) = outGw m c := by
  rw [Boundary.W6_v81 m ρ c, HeadGw.final (V3 m ρ) c]
  unfold HeadGw.G outGw
  rw [Boundary.V3_v18 m ρ c, Boundary.V3_arg1 m ρ c, Boundary.V3_arg11 m ρ c, Boundary.V3_v79 m ρ c, Boundary.V3_arg13 m ρ c,
    Boundary.V3_arg23 m ρ c, Boundary.V3_v80 m ρ c]

theorem sw_eq (c : Dev nD) : W6 m ρ c (Proc.devRef .tc main_v84) = outSw m c := by
  rw [Boundary.W6_v84 m ρ c, HeadSw.final (V5 m ρ) c]
  unfold HeadSw.G outSw
  rw [Boundary.V5_v37 m ρ c, Boundary.V5_arg2 m ρ c, Boundary.V5_arg17 m ρ c, Boundary.V5_v82 m ρ c, Boundary.V5_arg19 m ρ c,
    Boundary.V5_arg25 m ρ c, Boundary.V5_v83 m ρ c]

end Cert.KernelIdeal.Closed

end
-- ==== Proof.MeansReference.lean ====
/-
  The four neighbourhood means of the network, each as one function of a feature table and two index arrays: the
  program's own host operations (a gather of whole rows, two scatter-additions, a maximum with one, a division), named so
  that a proof can carry a mean as ONE term and never open it.
-/
import proofs.«166034_j32822140076342_1_alg».proof.Proof.Gen.ReferenceIdeal

noncomputable section

namespace Cert.ReferenceIdeal.Means

open Cert.ReferenceIdeal Cert.ReferenceIdeal.Gen Idealize.ShloMosaic Idealize.ShloMosaic.TcCoe

variable {F : FTy → Type} [FloatOps F]

/-- For the the x_pfas node set: the mean of the x_gw rows arriving at each of its nodes: rows of `x` taken at `src` (a negative index counted from the end), added up per
    destination `dst`, divided by the number of arrivals there, at least one. -/
def meanGp (x : FVec F S100000x128 .f32) (src dst : IVec S640000 32) :
    FVec F S20000x128 .f32 :=
  Host.divf (Host.scatterAdd scatter_S20000x128_S640000x1_S640000x128_1_0_0_1 (broadcastInDim S20000x128 ![] bcast_S_S20000x128 (constant S_ .f32 0x00000000#32)) (broadcastInDim S640000x1 ![0] bcast_S640000_S640000x1_0 dst) (Host.gather gather_S100000x128_S640000x1_S640000x128_1_0_n_n_0_1_1128 x (broadcastInDim S640000x1 ![0] bcast_S640000_S640000x1_0 (select (cmpi .slt src (broadcastInDim S640000 ![] bcast_S_S640000 (constantI S_ 32 0#32))) (addi src (broadcastInDim S640000 ![] bcast_S_S640000 (constantI S_ 32 100000#32))) src)))) (broadcastInDim S20000x128 ![0, 1] bcast_S20000x1_S20000x128_0_1 (broadcastInDim S20000x1 ![0] bcast_S20000_S20000x1_0 (maximumf (Host.scatterAdd scatter_S20000_S640000x1_S640000_n_0_0_1 (broadcastInDim S20000 ![] bcast_S_S20000 (constant S_ .f32 0x00000000#32)) (broadcastInDim S640000x1 ![0] bcast_S640000_S640000x1_0 dst) (broadcastInDim S640000 ![] bcast_S_S640000 (constant S_ .f32 0x3F800000#32))) (broadcastInDim S20000 ![] bcast_S_S20000 (constant S_ .f32 0x3F800000#32)))))

/-- For the the x_pfas node set: the mean of the x_sw rows arriving at each of its nodes: rows of `x` taken at `src` (a negative index counted from the end), added up per
    destination `dst`, divided by the number of arrivals there, at least one. -/
def meanSp (x : FVec F S30000x128 .f32) (src dst : IVec S320000 32) :
    FVec F S20000x128 .f32 :=
  Host.divf (Host.scatterAdd scatter_S20000x128_S320000x1_S320000x128_1_0_0_1 (broadcastInDim S20000x128 ![] bcast_S_S20000x128 (constant S_ .f32 0x00000000#32)) (broadcastInDim S320000x1 ![0] bcast_S320000_S320000x1_0 dst) (Host.gather gather_S30000x128_S320000x1_S320000x128_1_0_n_n_0_1_1128 x (broadcastInDim S320000x1 ![0] bcast_S320000_S320000x1_0 (select (cmpi .slt src (broadcastInDim S320000 ![] bcast_S_S320000 (constantI S_ 32 0#32))) (addi src (broadcastInDim S320000 ![] bcast_S_S320000 (constantI S_ 32 30000#32))) src)))) (broadcastInDim S20000x128 ![0, 1] bcast_S20000x1_S20000x128_0_1 (broadcastInDim S20000x1 ![0] bcast_S20000_S20000x1_0 (maximumf (Host.scatterAdd scatter_S20000_S320000x1_S320000_n_0_0_1 (broadcastInDim S20000 ![] bcast_S_S20000 (constant S_ .f32 0x00000000#32)) (broadcastInDim S320000x1 ![0] bcast_S320000_S320000x1_0 dst) (broadcastInDim S320000 ![] bcast_S_S320000 (constant S_ .f32 0x3F800000#32))) (broadcastInDim S20000 ![] bcast_S_S20000 (constant S_ .f32 0x3F800000#32)))))

/-- For the the x_gw node set: the mean of the x_pfas rows arriving at each of its nodes: rows of `x` taken at `src` (a negative index counted from the end), added up per
    destination `dst`, divided by the number of arrivals there, at least one. -/
def meanGw (x : FVec F S20000x128 .f32) (src dst : IVec S1600000 32) :
    FVec F S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S20000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 20000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

/-- For the the x_sw node set: the mean of the x_pfas rows arriving at each of its nodes: rows of `x` taken at `src` (a negative index counted from the end), added up per
    destination `dst`, divided by the number of arrivals there, at least one. -/
def meanSw (x : FVec F S20000x128 .f32) (src dst : IVec S480000 32) :
    FVec F S30000x128 .f32 :=
  Host.divf (Host.scatterAdd scatter_S30000x128_S480000x1_S480000x128_1_0_0_1 (broadcastInDim S30000x128 ![] bcast_S_S30000x128 (constant S_ .f32 0x00000000#32)) (broadcastInDim S480000x1 ![0] bcast_S480000_S480000x1_0 dst) (Host.gather gather_S20000x128_S480000x1_S480000x128_1_0_n_n_0_1_1128 x (broadcastInDim S480000x1 ![0] bcast_S480000_S480000x1_0 (select (cmpi .slt src (broadcastInDim S480000 ![] bcast_S_S480000 (constantI S_ 32 0#32))) (addi src (broadcastInDim S480000 ![] bcast_S_S480000 (constantI S_ 32 20000#32))) src)))) (broadcastInDim S30000x128 ![0, 1] bcast_S30000x1_S30000x128_0_1 (broadcastInDim S30000x1 ![0] bcast_S30000_S30000x1_0 (maximumf (Host.scatterAdd scatter_S30000_S480000x1_S480000_n_0_0_1 (broadcastInDim S30000 ![] bcast_S_S30000 (constant S_ .f32 0x00000000#32)) (broadcastInDim S480000x1 ![0] bcast_S480000_S480000x1_0 dst) (broadcastInDim S480000 ![] bcast_S_S480000 (constant S_ .f32 0x3F800000#32))) (broadcastInDim S30000 ![] bcast_S_S30000 (constant S_ .f32 0x3F800000#32)))))

end Cert.ReferenceIdeal.Means

end
-- ==== Proof.MeansAgree.lean ====
/-
  The kernel program's and the reference's neighbourhood means are one function: the two programs print the same host
  operations over dimension records of the same fields, so after the records are opened the two terms coincide.  Nothing
  of the gather or the scatter-additions is opened.
-/
import proofs.«166034_j32822140076342_1_alg».proof.Proof.MeansKernel
import proofs.«166034_j32822140076342_1_alg».proof.Proof.MeansReference

noncomputable section

namespace Cert.MeansAgree

open Idealize.ShloMosaic Idealize.ShloMosaic.TcCoe

variable {F : FTy → Type} [FloatOps F]

theorem meanGp_agree (x : FVec F Cert.KernelIdeal.S100000x128 .f32) (src dst : IVec Cert.KernelIdeal.S640000 32) :
    Cert.KernelIdeal.Means.meanGp x src dst = Cert.ReferenceIdeal.Means.meanGp x src dst := by
  unfold Cert.KernelIdeal.Means.meanGp Cert.ReferenceIdeal.Means.meanGp
  unfold Cert.KernelIdeal.scatter_S20000x128_S640000x1_S640000x128_1_0_0_1 Cert.ReferenceIdeal.scatter_S20000x128_S640000x1_S640000x128_1_0_0_1 Cert.KernelIdeal.gather_S100000x128_S640000x1_S640000x128_1_0_n_n_0_1_1128 Cert.ReferenceIdeal.gather_S100000x128_S640000x1_S640000x128_1_0_n_n_0_1_1128 Cert.KernelIdeal.scatter_S20000_S640000x1_S640000_n_0_0_1 Cert.ReferenceIdeal.scatter_S20000_S640000x1_S640000_n_0_0_1
  with_reducible rfl

theorem meanSp_agree (x : FVec F Cert.KernelIdeal.S30000x128 .f32) (src dst : IVec Cert.KernelIdeal.S320000 32) :
    Cert.KernelIdeal.Means.meanSp x src dst = Cert.ReferenceIdeal.Means.meanSp x src dst := by
  unfold Cert.KernelIdeal.Means.meanSp Cert.ReferenceIdeal.Means.meanSp
  unfold Cert.KernelIdeal.scatter_S20000x128_S320000x1_S320000x128_1_0_0_1 Cert.ReferenceIdeal.scatter_S20000x128_S320000x1_S320000x128_1_0_0_1 Cert.KernelIdeal.gather_S30000x128_S320000x1_S320000x128_1_0_n_n_0_1_1128 Cert.ReferenceIdeal.gather_S30000x128_S320000x1_S320000x128_1_0_n_n_0_1_1128 Cert.KernelIdeal.scatter_S20000_S320000x1_S320000_n_0_0_1 Cert.ReferenceIdeal.scatter_S20000_S320000x1_S320000_n_0_0_1
  with_reducible rfl

theorem meanGw_agree (x : FVec F Cert.KernelIdeal.S20000x128 .f32) (src dst : IVec Cert.KernelIdeal.S1600000 32) :
    Cert.KernelIdeal.Means.meanGw x src dst = Cert.ReferenceIdeal.Means.meanGw x src dst := by
  unfold Cert.KernelIdeal.Means.meanGw Cert.ReferenceIdeal.Means.meanGw
  unfold Cert.KernelIdeal.scatter_S100000x128_S1600000x1_S1600000x128_1_0_0_1 Cert.ReferenceIdeal.scatter_S100000x128_S1600000x1_S1600000x128_1_0_0_1 Cert.KernelIdeal.gather_S20000x128_S1600000x1_S1600000x128_1_0_n_n_0_1_1128 Cert.ReferenceIdeal.gather_S20000x128_S1600000x1_S1600000x128_1_0_n_n_0_1_1128 Cert.KernelIdeal.scatter_S100000_S1600000x1_S1600000_n_0_0_1 Cert.ReferenceIdeal.scatter_S100000_S1600000x1_S1600000_n_0_0_1
  with_reducible rfl

theorem meanSw_agree (x : FVec F Cert.KernelIdeal.S20000x128 .f32) (src dst : IVec Cert.KernelIdeal.S480000 32) :
    Cert.KernelIdeal.Means.meanSw x src dst = Cert.ReferenceIdeal.Means.meanSw x src dst := by
  unfold Cert.KernelIdeal.Means.meanSw Cert.ReferenceIdeal.Means.meanSw
  unfold Cert.KernelIdeal.scatter_S30000x128_S480000x1_S480000x128_1_0_0_1 Cert.ReferenceIdeal.scatter_S30000x128_S480000x1_S480000x128_1_0_0_1 Cert.KernelIdeal.gather_S20000x128_S480000x1_S480000x128_1_0_n_n_0_1_1128 Cert.ReferenceIdeal.gather_S20000x128_S480000x1_S480000x128_1_0_n_n_0_1_1128 Cert.KernelIdeal.scatter_S30000_S480000x1_S480000_n_0_0_1 Cert.ReferenceIdeal.scatter_S30000_S480000x1_S480000_n_0_0_1
  with_reducible rfl

end Cert.MeansAgree

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«166034_j32822140076342_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.LibHeteroHost.lean ====
/-
  The reference's spelling of the two kinds of result, as whole matrices on the extended reals.

  The host writes a layer as a dot_general, the bias vector made a row and repeated down the rows by two
  broadcast_in_dims, a second dot_general added, and a maximum against the zero matrix.  Read at an entry these are the
  plain sums of products of LibDenseLayers, so the one-relation result with its head is `headOut` and the sum of two
  pre-activations rectified is `dualOut`, as functions.  For any extents; the axis maps and their values are hypotheses.
-/
import proofs.«166034_j32822140076342_1_alg».proof.Proof.LibHeteroLayers
import proofs.«166034_j32822140076342_1_alg».proof.Proof.LibHostLayers

noncomputable section

open scoped BigOperators

namespace Cert.Hetero

open Idealize.ShloMosaic Idealize.ShloMosaic.ValueIdx Cert.SageLayers

variable {R K N : ℕ}

/-- The one-relation result in the host's spelling: the rectified layer, then the [N, 1] head and its bias. -/
theorem host_head_eq (A H : FVec Ideal ⟨2, ![R, K]⟩ .f32) (Wl : FVec Ideal ⟨2, ![K, N]⟩ .f32) (b : FVec Ideal ⟨1, ![N]⟩ .f32)
    (Wr : FVec Ideal ⟨2, ![K, N]⟩ .f32) (Wh : FVec Ideal ⟨2, ![N, 1]⟩ .f32) (bh : FVec Ideal ⟨1, ![1]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0)
    (e1 : Fin (⟨1, ![1]⟩ : Shape).rank → Fin (⟨2, ![1, 1]⟩ : Shape).rank) (he1 : e1 0 = 1)
    (hc1 : (⟨1, ![1]⟩ : Shape).BroadcastsInDim ⟨2, ![1, 1]⟩ e1)
    (e2 : Fin (⟨2, ![1, 1]⟩ : Shape).rank → Fin (⟨2, ![R, 1]⟩ : Shape).rank) (he20 : e2 0 = 0) (he21 : e2 1 = 1)
    (hc2 : (⟨2, ![1, 1]⟩ : Shape).BroadcastsInDim ⟨2, ![R, 1]⟩ e2) :
    addf (Host.dotGeneral (DotDims.plain R N 1) none
          (maximumf (addf (addf (Host.dotGeneral (DotDims.plain R K N) none A Wl)
                (broadcastInDim ⟨2, ![R, N]⟩ d2 hb2 (broadcastInDim ⟨2, ![1, N]⟩ d1 hb1 b)))
              (Host.dotGeneral (DotDims.plain R K N) none H Wr))
            (broadcastInDim ⟨2, ![R, N]⟩ d0 hb0 (constant (F := Ideal) ⟨0, ![]⟩ .f32 0x00000000#32)))
          Wh)
        (broadcastInDim ⟨2, ![R, 1]⟩ e2 hc2 (broadcastInDim ⟨2, ![1, 1]⟩ e1 hc1 bh))
      = headOut A H Wl (broadcastInDim ⟨2, ![1, N]⟩ d1 hb1 b) Wr Wh (broadcastInDim ⟨2, ![1, 1]⟩ e1 hc1 bh) := by
  rw [host_sage_eq A H Wl b Wr d1 hd1 hb1 d2 hd20 hd21 hb2 d0 hb0]
  exact host_aff_eq (sageLayer A H Wl (broadcastInDim ⟨2, ![1, N]⟩ d1 hb1 b) Wr) Wh bh e1 he1 hc1 e2 he20 he21 hc2

/-- The two-relation result in the host's spelling: two pre-activations added, then the maximum with zero. -/
theorem host_dual_eq (A1 H A2 : FVec Ideal ⟨2, ![R, K]⟩ .f32) (Wl1 Wr1 Wl2 Wr2 : FVec Ideal ⟨2, ![K, N]⟩ .f32)
    (b1 b2 : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf
        (addf
          (addf (addf (Host.dotGeneral (DotDims.plain R K N) none A1 Wl1)
              (broadcastInDim ⟨2, ![R, N]⟩ d2 hb2 (broadcastInDim ⟨2, ![1, N]⟩ d1 hb1 b1)))
            (Host.dotGeneral (DotDims.plain R K N) none H Wr1))
          (addf (addf (Host.dotGeneral (DotDims.plain R K N) none A2 Wl2)
              (broadcastInDim ⟨2, ![R, N]⟩ d2 hb2 (broadcastInDim ⟨2, ![1, N]⟩ d1 hb1 b2)))
            (Host.dotGeneral (DotDims.plain R K N) none H Wr2)))
        (broadcastInDim ⟨2, ![R, N]⟩ d0 hb0 (constant (F := Ideal) ⟨0, ![]⟩ .f32 0x00000000#32))
      = dualOut A1 H Wl1 (broadcastInDim ⟨2, ![1, N]⟩ d1 hb1 b1) Wr1 A2 Wl2 (broadcastInDim ⟨2, ![1, N]⟩ d1 hb1 b2) Wr2 := by
  funext i
  obtain ⟨r, g, rfl⟩ : ∃ (r : Fin R) (g : Fin N), i = ix2 r g := ⟨i 0, i 1, eq_ix2 i⟩
  rw [maximumf_apply, host_zero_at, addf_apply, addf_apply, addf_apply]
  exact congrArg (max · zeroF)
    (congrArg₂ (· + ·)
      (congrArg₂ (· + ·) (host_affine_at A1 Wl1 b1 d1 hd1 hb1 d2 hd20 hd21 hb2 r g) (host_dot_at H Wr1 r g))
      (congrArg₂ (· + ·) (host_affine_at A2 Wl2 b2 d1 hd1 hb1 d2 hd20 hd21 hb2 r g) (host_dot_at H Wr2 r g)))

end Cert.Hetero

end
-- ==== Proof.RefClosed.lean ====
/-
  The reference's three results as the same functions of the arguments as the kernel program's.

  The reference's run ends with each result at its operations' composed term.  In that term a neighbourhood mean is the
  same operations as the kernel program's (MeansAgree), the layers are the host's spelling of `dualOut` and
  `headOut` (LibHeteroHost), and a bias vector made a [1, N] row by a broadcast_in_dim along axis 1 is the row its reshape
  makes (`row_of_vector`).  The arguments are variables here; the means are carried as one term each.
-/
import proofs.«166034_j32822140076342_1_alg».proof.Proof.Gen.ReferenceIdeal.Run
import proofs.«166034_j32822140076342_1_alg».proof.Proof.MeansAgree
import proofs.«166034_j32822140076342_1_alg».proof.Proof.LibHeteroHost

set_option maxRecDepth 16384

noncomputable section

namespace Cert.ReferenceIdeal.Closed

open Cert.ReferenceIdeal Cert.ReferenceIdeal.Gen Cert.Hetero Cert.SageLayers
open Idealize.ShloMosaic Idealize.ShloMosaic.TcCoe

/-- The [20000, 128] result. -/
theorem pf_eq (a0 : FVec Ideal S20000x128 .f32) (a1 : FVec Ideal S100000x128 .f32) (a2 : FVec Ideal S30000x128 .f32)
    (a5 a6 : IVec S640000 32) (a9 a10 : IVec S320000 32)
    (a14 a16 a20 a22 : FVec Ideal S128x128 .f32) (a15 a21 : FVec Ideal S128 .f32) :
    maximumf (addf (addf (addf (Host.dotGeneral dot_S20000x128_S128x128_S20000x128_1_0_0_1_n_n none (Means.meanGp (F := Ideal) a1 a5 a6) a14) (broadcastInDim S20000x128 ![0, 1] bcast_S1x128_S20000x128_0_1 (broadcastInDim S1x128 ![1] bcast_S128_S1x128_1 a15))) (Host.dotGeneral dot_S20000x128_S128x128_S20000x128_1_0_0_1_n_n none a0 a16)) (addf (addf (Host.dotGeneral dot_S20000x128_S128x128_S20000x128_1_0_0_1_n_n none (Means.meanSp (F := Ideal) a2 a9 a10) a20) (broadcastInDim S20000x128 ![0, 1] bcast_S1x128_S20000x128_0_1 (broadcastInDim S1x128 ![1] bcast_S128_S1x128_1 a21))) (Host.dotGeneral dot_S20000x128_S128x128_S20000x128_1_0_0_1_n_n none a0 a22))) (broadcastInDim S20000x128 ![] bcast_S_S20000x128 (constant S_ .f32 0x00000000#32))
      = dualOut (R := 20000) (K := 128) (N := 128) (Cert.KernelIdeal.Means.meanGp (F := Ideal) a1 a5 a6) a0 a14 (shapeCast Cert.KernelIdeal.S1x128 a15 Cert.KernelIdeal.Gen.shapeCasts_S128_S1x128) a16
          (Cert.KernelIdeal.Means.meanSp (F := Ideal) a2 a9 a10) a20 (shapeCast Cert.KernelIdeal.S1x128 a21 Cert.KernelIdeal.Gen.shapeCasts_S128_S1x128) a22 := by
  refine (host_dual_eq (R := 20000) (K := 128) (N := 128) (Means.meanGp (F := Ideal) a1 a5 a6) a0 (Means.meanSp (F := Ideal) a2 a9 a10) a14 a16 a20 a22 a15 a21
    ![1] rfl bcast_S128_S1x128_1 ![0, 1] rfl rfl bcast_S1x128_S20000x128_0_1 ![] bcast_S_S20000x128).trans ?_
  rw [← Cert.MeansAgree.meanGp_agree, ← Cert.MeansAgree.meanSp_agree,
    row_of_vector a15 ![1] rfl bcast_S128_S1x128_1 Cert.KernelIdeal.Gen.shapeCasts_S128_S1x128,
    row_of_vector a21 ![1] rfl bcast_S128_S1x128_1 Cert.KernelIdeal.Gen.shapeCasts_S128_S1x128]

/-- The [100000, 1] result. -/
theorem gw_eq (a0 : FVec Ideal S20000x128 .f32) (a1 : FVec Ideal S100000x128 .f32) (a3 a4 : IVec S1600000 32)
    (a11 a13 : FVec Ideal S128x128 .f32) (a12 : FVec Ideal S128 .f32) (a23 : FVec Ideal S128x1 .f32) (a24 : FVec Ideal S1 .f32) :
    addf (Host.dotGeneral dot_S100000x128_S128x1_S100000x1_1_0_0_1_n_n none (maximumf (addf (addf (Host.dotGeneral dot_S100000x128_S128x128_S100000x128_1_0_0_1_n_n none (Means.meanGw (F := Ideal) a0 a3 a4) a11) (broadcastInDim S100000x128 ![0, 1] bcast_S1x128_S100000x128_0_1 (broadcastInDim S1x128 ![1] bcast_S128_S1x128_1 a12))) (Host.dotGeneral dot_S100000x128_S128x128_S100000x128_1_0_0_1_n_n none a1 a13)) (broadcastInDim S100000x128 ![] bcast_S_S100000x128 (constant S_ .f32 0x00000000#32))) a23) (broadcastInDim S100000x1 ![0, 1] bcast_S1x1_S100000x1_0_1 (broadcastInDim S1x1 ![1] bcast_S1_S1x1_1 a24))
      = headOut (R := 100000) (K := 128) (N := 128) (Cert.KernelIdeal.Means.meanGw (F := Ideal) a0 a3 a4) a1 a11 (shapeCast Cert.KernelIdeal.S1x128 a12 Cert.KernelIdeal.Gen.shapeCasts_S128_S1x128) a13
          a23 (shapeCast Cert.KernelIdeal.S1x1 a24 Cert.KernelIdeal.Gen.shapeCasts_S1_S1x1) := by
  refine (host_head_eq (R := 100000) (K := 128) (N := 128) (Means.meanGw (F := Ideal) a0 a3 a4) a1 a11 a12 a13 a23 a24
    ![1] rfl bcast_S128_S1x128_1 ![0, 1] rfl rfl bcast_S1x128_S100000x128_0_1 ![] bcast_S_S100000x128
    ![1] rfl bcast_S1_S1x1_1 ![0, 1] rfl rfl bcast_S1x1_S100000x1_0_1).trans ?_
  rw [← Cert.MeansAgree.meanGw_agree,
    row_of_vector a12 ![1] rfl bcast_S128_S1x128_1 Cert.KernelIdeal.Gen.shapeCasts_S128_S1x128,
    row_of_vector a24 ![1] rfl bcast_S1_S1x1_1 Cert.KernelIdeal.Gen.shapeCasts_S1_S1x1]

/-- The [30000, 1] result. -/
theorem sw_eq (a0 : FVec Ideal S20000x128 .f32) (a2 : FVec Ideal S30000x128 .f32) (a7 a8 : IVec S480000 32)
    (a17 a19 : FVec Ideal S128x128 .f32) (a18 : FVec Ideal S128 .f32) (a25 : FVec Ideal S128x1 .f32) (a26 : FVec Ideal S1 .f32) :
    addf (Host.dotGeneral dot_S30000x128_S128x1_S30000x1_1_0_0_1_n_n none (maximumf (addf (addf (Host.dotGeneral dot_S30000x128_S128x128_S30000x128_1_0_0_1_n_n none (Means.meanSw (F := Ideal) a0 a7 a8) a17) (broadcastInDim S30000x128 ![0, 1] bcast_S1x128_S30000x128_0_1 (broadcastInDim S1x128 ![1] bcast_S128_S1x128_1 a18))) (Host.dotGeneral dot_S30000x128_S128x128_S30000x128_1_0_0_1_n_n none a2 a19)) (broadcastInDim S30000x128 ![] bcast_S_S30000x128 (constant S_ .f32 0x00000000#32))) a25) (broadcastInDim S30000x1 ![0, 1] bcast_S1x1_S30000x1_0_1 (broadcastInDim S1x1 ![1] bcast_S1_S1x1_1 a26))
      = headOut (R := 30000) (K := 128) (N := 128) (Cert.KernelIdeal.Means.meanSw (F := Ideal) a0 a7 a8) a2 a17 (shapeCast Cert.KernelIdeal.S1x128 a18 Cert.KernelIdeal.Gen.shapeCasts_S128_S1x128) a19
          a25 (shapeCast Cert.KernelIdeal.S1x1 a26 Cert.KernelIdeal.Gen.shapeCasts_S1_S1x1) := by
  refine (host_head_eq (R := 30000) (K := 128) (N := 128) (Means.meanSw (F := Ideal) a0 a7 a8) a2 a17 a18 a19 a25 a26
    ![1] rfl bcast_S128_S1x128_1 ![0, 1] rfl rfl bcast_S1x128_S30000x128_0_1 ![] bcast_S_S30000x128
    ![1] rfl bcast_S1_S1x1_1 ![0, 1] rfl rfl bcast_S1x1_S30000x1_0_1).trans ?_
  rw [← Cert.MeansAgree.meanSw_agree,
    row_of_vector a18 ![1] rfl bcast_S128_S1x128_1 Cert.KernelIdeal.Gen.shapeCasts_S128_S1x128,
    row_of_vector a26 ![1] rfl bcast_S1_S1x1_1 Cert.KernelIdeal.Gen.shapeCasts_S1_S1x1]

end Cert.ReferenceIdeal.Closed

end
-- ==== Proof.lean ====
/-
  The certificate of a two-layer message-passing network over three node sets (x_pfas, x_gw, x_sw) against its plain
  jnp reference, on the extended reals.

  Both programs compute, on the host and with the same operations, four neighbourhood means (rows of a source node
  set gathered along the edges of a relation, added up per destination node, divided by the number of arrivals, at
  least one).  The reference then applies to each destination node set  (mean · Wl + bl) + x · Wr  per incoming
  relation, adds the two relations that arrive at x_pfas, rectifies, and sends the x_gw and x_sw results through a
  [128, 1] head with its bias.  The kernel program does this dense part in three pipelined regions, tile of rows by
  tile of rows, with the operands narrowed to bf16 on the way into each product and the bias added after the second
  product:  (mean · Wl + x · Wr) + bl.

  On the extended reals a change of float format is the identity and both kinds of product are the plain sum over the
  contracted axis, so the only difference left is the place of the bias in a sum of three terms; addition there is
  commutative and associative, so the two agree with no finiteness assumption (the precondition is not used).

  The proof: each region's result array is one function of the arrays the region finds (DualPf, HeadGw, HeadSw, over
  the entries of LibHeteroLayers); those arrays are arguments, means of arguments and reshaped bias vectors (Boundary); so the
  kernel program's run ends at three functions of the launch arguments (KernelRun, KernelClosed).  The reference's run
  ends at its operations' composed terms, which are the same three functions (LibHeteroHost, MeansAgree, RefClosed).
-/
import proofs.«166034_j32822140076342_1_alg».proof.Defs
import proofs.«166034_j32822140076342_1_alg».proof.Proof.Gen.Kernel
import proofs.«166034_j32822140076342_1_alg».proof.Proof.Gen.Kernel.Frame
import proofs.«166034_j32822140076342_1_alg».proof.Proof.Gen.KernelIdeal
import proofs.«166034_j32822140076342_1_alg».proof.Proof.Gen.KernelIdeal.Frame
import proofs.«166034_j32822140076342_1_alg».proof.Proof.Gen.ReferenceIdeal
import proofs.«166034_j32822140076342_1_alg».proof.Proof.Gen.ReferenceIdeal.Run
import proofs.«166034_j32822140076342_1_alg».proof.Proof.Gen.Pre_finite_inputs
import proofs.«166034_j32822140076342_1_alg».proof.Proof.KernelClosed
import proofs.«166034_j32822140076342_1_alg».proof.Proof.RefClosed
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing: there is no conjunct to prove. -/
theorem preserves : Cert.preserves_Kernel_KernelIdeal := trivial

/-- Both runs end with each result at the same function of the (agreeing) arguments. -/
theorem algebraic : Cert.algebraic_KernelIdeal_ReferenceIdeal := by
  intro m ρ m' ρ' _ hagree
  refine ⟨fun c => Cert.KernelIdeal.Closed.outPf m c, fun c => Cert.KernelIdeal.Closed.outGw m c,
    fun c => Cert.KernelIdeal.Closed.outSw m c, ?_, ?_⟩
  · refine (θ_run Cert.KernelIdeal.defs _ _).mono (fun r h c => ?_) (Cert.KernelIdeal.Named.run (F := Ideal) m ρ)
    obtain ⟨h0, h1, h2, hrest⟩ := h c
    exact ⟨h0.trans (Cert.KernelIdeal.Closed.pf_eq m ρ c), h1.trans (Cert.KernelIdeal.Closed.gw_eq m ρ c),
      h2.trans (Cert.KernelIdeal.Closed.sw_eq m ρ c), hrest⟩
  · refine (θ_run Cert.ReferenceIdeal.defs _ _).mono (fun r h c => ?_) (Cert.ReferenceIdeal.Value.run (F := Ideal) m' ρ')
    obtain ⟨h0, h1, h2, hrest⟩ := h c
    obtain ⟨g0, g1, g2, g3, g4, g5, g6, g7, g8, g9, g10, g11, g12, g13, g14, g15, g16, g17, g18, g19, g20, g21, g22, g23, g24, g25, g26⟩ := hagree c
    refine ⟨h0.trans ?_, h1.trans ?_, h2.trans ?_, hrest⟩
    · rw [g0, g1, g2, g5, g6, g9, g10, g14, g15, g16, g20, g21, g22]
      exact Cert.ReferenceIdeal.Closed.pf_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        (m ((c.tc : Thread Cert.KernelIdeal.nD Cert.KernelIdeal.τ).loc Cert.KernelIdeal.main_arg14)) (m ((c.tc : Thread Cert.KernelIdeal.nD Cert.KernelIdeal.τ).loc Cert.KernelIdeal.main_arg16)) (m ((c.tc : Thread Cert.KernelIdeal.nD Cert.KernelIdeal.τ).loc Cert.KernelIdeal.main_arg20)) (m ((c.tc : Thread Cert.KernelIdeal.nD Cert.KernelIdeal.τ).loc Cert.KernelIdeal.main_arg22)) (m ((c.tc : Thread Cert.KernelIdeal.nD Cert.KernelIdeal.τ).loc Cert.KernelIdeal.main_arg15)) (m ((c.tc : Thread Cert.KernelIdeal.nD Cert.KernelIdeal.τ).loc Cert.KernelIdeal.main_arg21))
    · rw [g0, g1, g3, g4, g11, g12, g13, g23, g24]
      exact Cert.ReferenceIdeal.Closed.gw_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg12)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
    · rw [g0, g2, g7, g8, g17, g18, g19, g25, g26]
      exact Cert.ReferenceIdeal.Closed.sw_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg17)) (m ((c.tc : Thread Cert.KernelIdeal.nD Cert.KernelIdeal.τ).loc Cert.KernelIdeal.main_arg19)) (m ((c.tc : Thread Cert.KernelIdeal.nD Cert.KernelIdeal.τ).loc Cert.KernelIdeal.main_arg18)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
